-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x5 : Shape := ⟨2, ![2000000, 5]⟩
abbrev S64x4x4096x8 : Shape := ⟨4, ![64, 4, 4096, 8]⟩
abbrev S2000000x8 : Shape := ⟨2, ![2000000, 8]⟩
abbrev S1 : Shape := ⟨1, ![1]⟩
abbrev S21 : Shape := ⟨1, ![21]⟩
abbrev S_ : Shape := ⟨0, ![]⟩

class Facts : Prop where
  bcast_S_S64x4x4096x8 : S_.BroadcastsInDim S64x4x4096x8 (![] : Fin 0 → Fin S64x4x4096x8.rank)
  reducesTo_S64x4x4096x8_S_d0_1_2_3 : S64x4x4096x8.ReducesTo [0, 1, 2, 3] S_
  h_S_ : 0 < S_.numel
  bcast_S_S1 : S_.BroadcastsInDim S1 (![] : Fin 0 → Fin S1.rank)
  reducesTo_S1_S_d0 : S1.ReducesTo [0] S_
  bcast_S_S21 : S_.BroadcastsInDim S21 (![] : Fin 0 → Fin S21.rank)
  reducesTo_S21_S_d0 : S21.ReducesTo [0] S_

variable [Facts]

def fn_part1 {F : FTy → Type} [FloatOps F] (main_arg6 : FVec F S1 .f32) (main_arg7 : FVec F S21 .f32) (main_v13 : IVec S_ 1) (main_v16 : IVec S64x4x4096x8 1) : IVec S_ 1 :=
  let main_c_5 : IVec S_ 1 := constantI S_ 1 1#1
  let main_v17 : IVec S_ 1 := (fun x v => Host.reduce IntOp.andi x v reducesTo_S64x4x4096x8_S_d0_1_2_3 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S21 .f32 := Host.absf main_arg7
  let main_cst_8 : FVec F S_ .f32 := constant S_ .f32 0x7F800000#32
  let main_v25 : FVec F S21 .f32 := broadcastInDim S21 ![] bcast_S_S21 main_cst_8
  let main_v26 : IVec S21 1 := cmpf .olt main_v24 main_v25
  let main_c_9 : IVec S_ 1 := constantI S_ 1 1#1
  let main_v27 : IVec S_ 1 := (fun x v => Host.reduce IntOp.andi x v reducesTo_S21_S_d0 h_S_) main_v26 main_c_9
  let main_v28 : IVec S_ 1 := andi main_v23 main_v27
  main_v28

def fn {F : FTy → Type} [FloatOps F] (main_arg0 : IVec S2000000x5 32) (main_arg1 : FVec F S64x4x4096x8 .f32) (main_arg2 : FVec F S64x4x4096x8 .f32) (main_arg3 : FVec F S64x4x4096x8 .f32) (main_arg4 : FVec F S64x4x4096x8 .f32) (main_arg5 : IVec S2000000x8 1) (main_arg6 : FVec F S1 .f32) (main_arg7 : FVec F S21 .f32) : IVec S_ 1 :=
  let main_v0 : FVec F S64x4x4096x8 .f32 := Host.absf main_arg1
  let main_cst : FVec F S_ .f32 := constant S_ .f32 0x7F800000#32
  let main_v1 : FVec F S64x4x4096x8 .f32 := broadcastInDim S64x4x4096x8 ![] bcast_S_S64x4x4096x8 main_cst
  let main_v2 : IVec S64x4x4096x8 1 := cmpf .olt main_v0 main_v1
  let main_c : IVec S_ 1 := constantI S_ 1 1#1
  let main_v3 : IVec S_ 1 := (fun x v => Host.reduce IntOp.andi x v reducesTo_S64x4x4096x8_S_d0_1_2_3 h_S_) main_v2 main_c
  let main_v4 : FVec F S64x4x4096x8 .f32 := Host.absf main_arg2
  let main_cst_0 : FVec F S_ .f32 := constant S_ .f32 0x7F800000#32
  let main_v5 : FVec F S64x4x4096x8 .f32 := broadcastInDim S64x4x4096x8 ![] bcast_S_S64x4x4096x8 main_cst_0
  let main_v6 : IVec S64x4x4096x8 1 := cmpf .olt main_v4 main_v5
  let main_c_1 : IVec S_ 1 := constantI S_ 1 1#1
  let main_v7 : IVec S_ 1 := (fun x v => Host.reduce IntOp.andi x v reducesTo_S64x4x4096x8_S_d0_1_2_3 h_S_) main_v6 main_c_1
  let main_v8 : IVec S_ 1 := andi main_v3 main_v7
  let main_v9 : FVec F S64x4x4096x8 .f32 := Host.absf main_arg3
  let main_cst_2 : FVec F S_ .f32 := constant S_ .f32 0x7F800000#32
  let main_v10 : FVec F S64x4x4096x8 .f32 := broadcastInDim S64x4x4096x8 ![] bcast_S_S64x4x4096x8 main_cst_2
  let main_v11 : IVec S64x4x4096x8 1 := cmpf .olt main_v9 main_v10
  let main_c_3 : IVec S_ 1 := constantI S_ 1 1#1
  let main_v12 : IVec S_ 1 := (fun x v => Host.reduce IntOp.andi x v reducesTo_S64x4x4096x8_S_d0_1_2_3 h_S_) main_v11 main_c_3
  let main_v13 : IVec S_ 1 := andi main_v8 main_v12
  let main_v14 : FVec F S64x4x4096x8 .f32 := Host.absf main_arg4
  let main_cst_4 : FVec F S_ .f32 := constant S_ .f32 0x7F800000#32
  let main_v15 : FVec F S64x4x4096x8 .f32 := broadcastInDim S64x4x4096x8 ![] bcast_S_S64x4x4096x8 main_cst_4
  let main_v16 : IVec S64x4x4096x8 1 := cmpf .olt main_v14 main_v15
  fn_part1 (F := F) main_arg6 main_arg7 main_v13 main_v16
-- ==== Kernel.lean ====
abbrev S2000000x5 : Shape := ⟨2, ![2000000, 5]⟩
abbrev S64x4x4096x8 : Shape := ⟨4, ![64, 4, 4096, 8]⟩
abbrev S2000000x8 : Shape := ⟨2, ![2000000, 8]⟩
abbrev S1 : Shape := ⟨1, ![1]⟩
abbrev S21 : Shape := ⟨1, ![21]⟩
abbrev S2000000x1 : Shape := ⟨2, ![2000000, 1]⟩
abbrev S2000000 : Shape := ⟨1, ![2000000]⟩
abbrev S_ : Shape := ⟨0, ![]⟩
abbrev S8 : Shape := ⟨1, ![8]⟩
abbrev S2000000x8x1 : Shape := ⟨3, ![2000000, 8, 1]⟩
abbrev S2000000x8x4 : Shape := ⟨3, ![2000000, 8, 4]⟩
abbrev S256x32768 : Shape := ⟨2, ![256, 32768]⟩
abbrev S16x32768 : Shape := ⟨2, ![16, 32768]⟩

abbrev nBuf : Space → Nat
  | .hbm => 111
  | .vmem => 12
  | .smem => 0
  | _ => 0

abbrev bufTy : (tb : Table) → Fin (tcTables nBuf tb) → BufTy
  | .hbm, ⟨0, _⟩ => ⟨S2000000x5, .i32⟩
  | .hbm, ⟨1, _⟩ => ⟨S64x4x4096x8, .f32⟩
  | .hbm, ⟨2, _⟩ => ⟨S64x4x4096x8, .f32⟩
  | .hbm, ⟨3, _⟩ => ⟨S64x4x4096x8, .f32⟩
  | .hbm, ⟨4, _⟩ => ⟨S64x4x4096x8, .f32⟩
  | .hbm, ⟨5, _⟩ => ⟨S2000000x8, .i1⟩
  | .hbm, ⟨6, _⟩ => ⟨S1, .f32⟩
  | .hbm, ⟨7, _⟩ => ⟨S21, .f32⟩
  | .hbm, ⟨8, _⟩ => ⟨S2000000x1, .i32⟩
  | .hbm, ⟨9, _⟩ => ⟨S2000000, .i32⟩
  | .hbm, ⟨10, _⟩ => ⟨S2000000x1, .i32⟩
  | .hbm, ⟨11, _⟩ => ⟨S2000000, .i32⟩
  | .hbm, ⟨12, _⟩ => ⟨S2000000x1, .i32⟩
  | .hbm, ⟨13, _⟩ => ⟨S2000000, .i32⟩
  | .hbm, ⟨14, _⟩ => ⟨S2000000x1, .i32⟩
  | .hbm, ⟨15, _⟩ => ⟨S2000000, .i32⟩
  | .hbm, ⟨16, _⟩ => ⟨S2000000x1, .i32⟩
  | .hbm, ⟨17, _⟩ => ⟨S2000000, .i32⟩
  | .hbm, ⟨18, _⟩ => ⟨S_, .i32⟩
  | .hbm, ⟨19, _⟩ => ⟨S2000000, .i32⟩
  | .hbm, ⟨20, _⟩ => ⟨S2000000, .i1⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S_, .i32⟩
  | .hbm, ⟨37, _⟩ => ⟨S2000000, .i32⟩
  | .hbm, ⟨38, _⟩ => ⟨S2000000, .i32⟩
  | .hbm, ⟨39, _⟩ => ⟨S_, .i32⟩
  | .hbm, ⟨40, _⟩ => ⟨S2000000, .i32⟩
  | .hbm, ⟨41, _⟩ => ⟨S2000000, .i1⟩
  | .hbm, ⟨42, _⟩ => ⟨S_, .i32⟩
  | .hbm, ⟨43, _⟩ => ⟨S2000000, .i32⟩
  | .hbm, ⟨44, _⟩ => ⟨S2000000, .i32⟩
  | .hbm, ⟨45, _⟩ => ⟨S2000000, .i32⟩
  | .hbm, ⟨46, _⟩ => ⟨S2000000x1, .i32⟩
  | .hbm, ⟨47, _⟩ => ⟨S2000000, .f32⟩
  | .hbm, ⟨48, _⟩ => ⟨S2000000, .f32⟩
  | .hbm, ⟨49, _⟩ => ⟨S2000000, .f32⟩
  | .hbm, ⟨50, _⟩ => ⟨S2000000, .i1⟩
  | .hbm, ⟨51, _⟩ => ⟨S2000000x1, .i1⟩
  | .hbm, ⟨52, _⟩ => ⟨S2000000x8, .i1⟩
  | .hbm, ⟨53, _⟩ => ⟨S2000000x8, .i1⟩
  | .hbm, ⟨54, _⟩ => ⟨S2000000x1, .i32⟩
  | .hbm, ⟨55, _⟩ => ⟨S_, .i32⟩
  | .hbm, ⟨56, _⟩ => ⟨S_, .i32⟩
  | .hbm, ⟨57, _⟩ => ⟨S2000000x8, .i32⟩
  | .hbm, ⟨58, _⟩ => ⟨S2000000x8, .i32⟩
  | .hbm, ⟨59, _⟩ => ⟨S2000000x8, .i32⟩
  | .hbm, ⟨60, _⟩ => ⟨S8, .i32⟩
  | .hbm, ⟨61, _⟩ => ⟨S2000000x8, .i32⟩
  | .hbm, ⟨62, _⟩ => ⟨S2000000x1, .f32⟩
  | .hbm, ⟨63, _⟩ => ⟨S2000000x8, .f32⟩
  | .hbm, ⟨64, _⟩ => ⟨S_, .f32⟩
  | .hbm, ⟨65, _⟩ => ⟨S64x4x4096x8, .f32⟩
  | .hbm, ⟨66, _⟩ => ⟨S2000000x1, .i32⟩
  | .hbm, ⟨67, _⟩ => ⟨S2000000x1, .i32⟩
  | .hbm, ⟨68, _⟩ => ⟨S_, .i32⟩
  | .hbm, ⟨69, _⟩ => ⟨S2000000x8, .i32⟩
  | .hbm, ⟨70, _⟩ => ⟨S2000000x8, .i1⟩
  | .hbm, ⟨71, _⟩ => ⟨S_, .i32⟩
  | .hbm, ⟨72, _⟩ => ⟨S2000000x8, .i32⟩
  | .hbm, ⟨73, _⟩ => ⟨S2000000x8, .i32⟩
  | .hbm, ⟨74, _⟩ => ⟨S2000000x8, .i32⟩
  | .hbm, ⟨75, _⟩ => ⟨S_, .i32⟩
  | .hbm, ⟨76, _⟩ => ⟨S2000000x1, .i32⟩
  | .hbm, ⟨77, _⟩ => ⟨S2000000x1, .i1⟩
  | .hbm, ⟨78, _⟩ => ⟨S_, .i32⟩
  | .hbm, ⟨79, _⟩ => ⟨S2000000x1, .i32⟩
  | .hbm, ⟨80, _⟩ => ⟨S2000000x1, .i32⟩
  | .hbm, ⟨81, _⟩ => ⟨S2000000x1, .i32⟩
  | .hbm, ⟨82, _⟩ => ⟨S_, .i32⟩
  | .hbm, ⟨83, _⟩ => ⟨S2000000x1, .i32⟩
  | .hbm, ⟨84, _⟩ => ⟨S2000000x1, .i1⟩
  | .hbm, ⟨85, _⟩ => ⟨S_, .i32⟩
  | .hbm, ⟨86, _⟩ => ⟨S2000000x1, .i32⟩
  | .hbm, ⟨87, _⟩ => ⟨S2000000x1, .i32⟩
  | .hbm, ⟨88, _⟩ => ⟨S2000000x1, .i32⟩
  | .hbm, ⟨89, _⟩ => ⟨S_, .i32⟩
  | .hbm, ⟨90, _⟩ => ⟨S2000000x8, .i32⟩
  | .hbm, ⟨91, _⟩ => ⟨S2000000x8, .i1⟩
  | .hbm, ⟨92, _⟩ => ⟨S_, .i32⟩
  | .hbm, ⟨93, _⟩ => ⟨S2000000x8, .i32⟩
  | .hbm, ⟨94, _⟩ => ⟨S2000000x8, .i32⟩
  | .hbm, ⟨95, _⟩ => ⟨S2000000x8, .i32⟩
  | .hbm, ⟨96, _⟩ => ⟨S2000000x8, .i32⟩
  | .hbm, ⟨97, _⟩ => ⟨S2000000x8, .i32⟩
  | .hbm, ⟨98, _⟩ => ⟨S2000000x8x1, .i32⟩
  | .hbm, ⟨99, _⟩ => ⟨S2000000x8x1, .i32⟩
  | .hbm, ⟨100, _⟩ => ⟨S2000000x8x1, .i32⟩
  | .hbm, ⟨101, _⟩ => ⟨S2000000x8x1, .i32⟩
  | .hbm, ⟨102, _⟩ => ⟨S2000000x8x4, .i32⟩
  | .hbm, ⟨103, _⟩ => ⟨S64x4x4096x8, .f32⟩
  | .hbm, ⟨104, _⟩ => ⟨S256x32768, .f32⟩
  | .hbm, ⟨105, _⟩ => ⟨S256x32768, .f32⟩
  | .hbm, ⟨106, _⟩ => ⟨S256x32768, .f32⟩
  | .hbm, ⟨107, _⟩ => ⟨S256x32768, .f32⟩
  | .hbm, ⟨108, _⟩ => ⟨S256x32768, .f32⟩
  | .hbm, ⟨109, _⟩ => ⟨S256x32768, .f32⟩
  | .hbm, ⟨110, _⟩ => ⟨S64x4x4096x8, .f32⟩
  | .local _ .vmem, ⟨0, _⟩ => ⟨S16x32768, .f32⟩
  | .local _ .vmem, ⟨1, _⟩ => ⟨S16x32768, .f32⟩
  | .local _ .vmem, ⟨2, _⟩ => ⟨S16x32768, .f32⟩
  | .local _ .vmem, ⟨3, _⟩ => ⟨S16x32768, .f32⟩
  | .local _ .vmem, ⟨4, _⟩ => ⟨S16x32768, .f32⟩
  | .local _ .vmem, ⟨5, _⟩ => ⟨S16x32768, .f32⟩
  | .local _ .vmem, ⟨6, _⟩ => ⟨S16x32768, .f32⟩
  | .local _ .vmem, ⟨7, _⟩ => ⟨S16x32768, .f32⟩
  | .local _ .vmem, ⟨8, _⟩ => ⟨S16x32768, .f32⟩
  | .local _ .vmem, ⟨9, _⟩ => ⟨S16x32768, .f32⟩
  | .local _ .vmem, ⟨10, _⟩ => ⟨S16x32768, .f32⟩
  | .local _ .vmem, ⟨11, _⟩ => ⟨S16x32768, .f32⟩
  | _, _ => ⟨S2000000x5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_c_2 : Ref sig .tc := ⟨.hbm, 31, rfl⟩
abbrev main_c_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_8 : Ref sig .tc := ⟨.hbm, 68, rfl⟩
abbrev main_v42 : Ref sig .tc := ⟨.hbm, 69, rfl⟩
abbrev main_v43 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_10 : Ref sig .tc := ⟨.hbm, 75, rfl⟩
abbrev main_v47 : Ref sig .tc := ⟨.hbm, 76, rfl⟩
abbrev main_v48 : Ref sig .tc := ⟨.hbm, 77, rfl⟩
abbrev main_c_11 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_v52 : Ref sig .tc := ⟨.hbm, 83, rfl⟩
abbrev main_v53 : Ref sig .tc := ⟨.hbm, 84, rfl⟩
abbrev main_c_13 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_14 : Ref sig .tc := ⟨.hbm, 89, rfl⟩
abbrev main_v57 : Ref sig .tc := ⟨.hbm, 90, rfl⟩
abbrev main_v58 : Ref sig .tc := ⟨.hbm, 91, rfl⟩
abbrev main_c_15 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2000000x5_S2000000x1_0_0 : S2000000x5.Slices ![0, 0] S2000000x1
  shapeCasts_S2000000x1_S2000000 : S2000000x1.ShapeCasts S2000000
  slices_S2000000x5_S2000000x1_0_1 : S2000000x5.Slices ![0, 1] S2000000x1
  slices_S2000000x5_S2000000x1_0_2 : S2000000x5.Slices ![0, 2] S2000000x1
  slices_S2000000x5_S2000000x1_0_3 : S2000000x5.Slices ![0, 3] S2000000x1
  slices_S2000000x5_S2000000x1_0_4 : S2000000x5.Slices ![0, 4] S2000000x1
  bcast_S_S2000000 : S_.BroadcastsInDim S2000000 (![] : Fin 0 → Fin S2000000.rank)
  shapeCasts_S1_S_ : S1.ShapeCasts S_
  bcast_S2000000_S2000000x1_0 : S2000000.BroadcastsInDim S2000000x1 (![0] : Fin 1 → Fin S2000000x1.rank)
  bcast_S2000000x1_S2000000x8_0_1 : S2000000x1.BroadcastsInDim S2000000x8 (![0, 1] : Fin 2 → Fin S2000000x8.rank)
  bcast_S_S2000000x8 : S_.BroadcastsInDim S2000000x8 (![] : Fin 0 → Fin S2000000x8.rank)
  bcast_S8_S2000000x8_1 : S8.BroadcastsInDim S2000000x8 (![1] : Fin 1 → Fin S2000000x8.rank)
  bcast_S_S64x4x4096x8 : S_.BroadcastsInDim S64x4x4096x8 (![] : Fin 0 → Fin S64x4x4096x8.rank)
  bcast_S_S2000000x1 : S_.BroadcastsInDim S2000000x1 (![] : Fin 0 → Fin S2000000x1.rank)
  bcast_S2000000x8_S2000000x8x1_0_1 : S2000000x8.BroadcastsInDim S2000000x8x1 (![0, 1] : Fin 2 → Fin S2000000x8x1.rank)
  concatenates_S2000000x8x1_S2000000x8x1_S2000000x8x1_S2000000x8x1_S2000000x8x4_d2 : Shape.Concatenates [S2000000x8x1, S2000000x8x1, S2000000x8x1, S2000000x8x1] S2000000x8x4 2
  shapeCasts_S64x4x4096x8_S256x32768 : S64x4x4096x8.ShapeCasts S256x32768
  inb_S16x32768_S16x32768_0_0 : ∀ a, (![0, 0] : Fin 2 → Nat) a + S16x32768.size a ≤ S16x32768.size a
  h_S16x32768 : 0 < S16x32768.numel
  shapeCasts_S16x32768_S16x32768 : S16x32768.ShapeCasts S16x32768
  shapeCasts_S256x32768_S64x4x4096x8 : S256x32768.ShapeCasts S64x4x4096x8
  gather_S21_S2000000x1_S2000000_n_0_n_n_0_1_1_wf : GatherDims.WF S21 S2000000x1 S2000000 [] [0] [] [0] [] 1 ![1]
  scatter_S64x4x4096x8_S2000000x8x4_S2000000x8_n_0123_0123_2_wf : ScatterDims.WF S64x4x4096x8 S2000000x8x4 S2000000x8 [] [0, 1, 2, 3] [0, 1, 2, 3] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32768.size a ≤ S256x32768.size a
  hwx0_0 : ∀ i : grid0.Coords, EltTy.bits .f32 = 32 ∨ (Rect.block (s := S256x32768) S16x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x32768.size a ≤ S256x32768.size a
  hwx0_1 : ∀ i : grid0.Coords, EltTy.bits .f32 = 32 ∨ (Rect.block (s := S256x32768) S16x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x32768.size a ≤ S256x32768.size a
  hwx0_2 : ∀ i : grid0.Coords, EltTy.bits .f32 = 32 ∨ (Rect.block (s := S256x32768) S16x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x32768.size a ≤ S256x32768.size a
  hwx0_3 : ∀ i : grid0.Coords, EltTy.bits .f32 = 32 ∨ (Rect.block (s := S256x32768) S16x32768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x32768.size a ≤ S256x32768.size a
  hwx0_4 : ∀ i : grid0.Coords, EltTy.bits .f32 = 32 ∨ (Rect.block (s := S256x32768) S16x32768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x32768.size a ≤ S256x32768.size a
  hwx0_5 : ∀ i : grid0.Coords, EltTy.bits .f32 = 32 ∨ (Rect.block (s := S256x32768) S16x32768.size (cc0_transform_5 i) (hinb0_5 i)).WholeWords (EltTy.packing .f32)

variable [Facts₀]

def gather_S21_S2000000x1_S2000000_n_0_n_n_0_1_1 : GatherDims S21 S2000000x1 S2000000 where
  offsetDims := []
  collapsedSliceDims := [0]
  operandBatchingDims := []
  startIndicesBatchingDims := []
  startIndexMap := [0]
  indexVectorDim := 1
  sliceSizes := ![1]
  wf := gather_S21_S2000000x1_S2000000_n_0_n_n_0_1_1_wf
def scatter_S64x4x4096x8_S2000000x8x4_S2000000x8_n_0123_0123_2 : ScatterDims S64x4x4096x8 S2000000x8x4 S2000000x8 where
  updateWindowDims := []
  insertedWindowDims := [0, 1, 2, 3]
  scatterDimsToOperandDims := [0, 1, 2, 3]
  indexVectorDim := 2
  wf := scatter_S64x4x4096x8_S2000000x8x4_S2000000x8_n_0123_0123_2_wf

abbrev win0_0 : Pipeline.Window sig grid0 :=
  Pipeline.Window.ofSpec (Memref.whole main_v70) S16x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v71) S16x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v72) S16x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v73) S16x32768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v74) S16x32768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v75) S16x32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000000x5 : Shape := ⟨2, ![2000000, 5]⟩
abbrev S64x4x4096x8 : Shape := ⟨4, ![64, 4, 4096, 8]⟩
abbrev S2000000x8 : Shape := ⟨2, ![2000000, 8]⟩
abbrev S1 : Shape := ⟨1, ![1]⟩
abbrev S21 : Shape := ⟨1, ![21]⟩
abbrev S2000000x1 : Shape := ⟨2, ![2000000, 1]⟩
abbrev S2000000 : Shape := ⟨1, ![2000000]⟩
abbrev S_ : Shape := ⟨0, ![]⟩
abbrev S8 : Shape := ⟨1, ![8]⟩
abbrev S2000000x8x1 : Shape := ⟨3, ![2000000, 8, 1]⟩
abbrev S2000000x8x4 : Shape := ⟨3, ![2000000, 8, 4]⟩

abbrev nBuf : Space → Nat
  | .hbm => 125
  | .vmem => 0
  | .smem => 0
  | _ => 0

abbrev bufTy : (tb : Table) → Fin (tcTables nBuf tb) → BufTy
  | .hbm, ⟨0, _⟩ => ⟨S2000000x5, .i32⟩
  | .hbm, ⟨1, _⟩ => ⟨S64x4x4096x8, .f32⟩
  | .hbm, ⟨2, _⟩ => ⟨S64x4x4096x8, .f32⟩
  | .hbm, ⟨3, _⟩ => ⟨S64x4x4096x8, .f32⟩
  | .hbm, ⟨4, _⟩ => ⟨S64x4x4096x8, .f32⟩
  | .hbm, ⟨5, _⟩ => ⟨S2000000x8, .i1⟩
  | .hbm, ⟨6, _⟩ => ⟨S1, .f32⟩
  | .hbm, ⟨7, _⟩ => ⟨S21, .f32⟩
  | .hbm, ⟨8, _⟩ => ⟨S2000000x1, .i32⟩
  | .hbm, ⟨9, _⟩ => ⟨S2000000, .i32⟩
  | .hbm, ⟨10, _⟩ => ⟨S2000000x1, .i32⟩
  | .hbm, ⟨11, _⟩ => ⟨S2000000, .i32⟩
  | .hbm, ⟨12, _⟩ => ⟨S2000000x1, .i32⟩
  | .hbm, ⟨13, _⟩ => ⟨S2000000, .i32⟩
  | .hbm, ⟨14, _⟩ => ⟨S2000000x1, .i32⟩
  | .hbm, ⟨15, _⟩ => ⟨S2000000, .i32⟩
  | .hbm, ⟨16, _⟩ => ⟨S2000000x1, .i32⟩
  | .hbm, ⟨17, _⟩ => ⟨S2000000, .i32⟩
  | .hbm, ⟨18, _⟩ => ⟨S_, .i32⟩
  | .hbm, ⟨19, _⟩ => ⟨S2000000, .i32⟩
  | .hbm, ⟨20, _⟩ => ⟨S2000000, .i1⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S_, .i32⟩
  | .hbm, ⟨37, _⟩ => ⟨S2000000, .i32⟩
  | .hbm, ⟨38, _⟩ => ⟨S2000000, .i32⟩
  | .hbm, ⟨39, _⟩ => ⟨S_, .i32⟩
  | .hbm, ⟨40, _⟩ => ⟨S2000000, .i32⟩
  | .hbm, ⟨41, _⟩ => ⟨S2000000, .i1⟩
  | .hbm, ⟨42, _⟩ => ⟨S_, .i32⟩
  | .hbm, ⟨43, _⟩ => ⟨S2000000, .i32⟩
  | .hbm, ⟨44, _⟩ => ⟨S2000000, .i32⟩
  | .hbm, ⟨45, _⟩ => ⟨S2000000, .i32⟩
  | .hbm, ⟨46, _⟩ => ⟨S2000000x1, .i32⟩
  | .hbm, ⟨47, _⟩ => ⟨S2000000, .f32⟩
  | .hbm, ⟨48, _⟩ => ⟨S2000000, .f32⟩
  | .hbm, ⟨49, _⟩ => ⟨S2000000, .f32⟩
  | .hbm, ⟨50, _⟩ => ⟨S2000000, .i1⟩
  | .hbm, ⟨51, _⟩ => ⟨S2000000x1, .i1⟩
  | .hbm, ⟨52, _⟩ => ⟨S2000000x8, .i1⟩
  | .hbm, ⟨53, _⟩ => ⟨S2000000x8, .i1⟩
  | .hbm, ⟨54, _⟩ => ⟨S2000000x1, .i32⟩
  | .hbm, ⟨55, _⟩ => ⟨S_, .i32⟩
  | .hbm, ⟨56, _⟩ => ⟨S_, .i32⟩
  | .hbm, ⟨57, _⟩ => ⟨S2000000x8, .i32⟩
  | .hbm, ⟨58, _⟩ => ⟨S2000000x8, .i32⟩
  | .hbm, ⟨59, _⟩ => ⟨S2000000x8, .i32⟩
  | .hbm, ⟨60, _⟩ => ⟨S8, .i32⟩
  | .hbm, ⟨61, _⟩ => ⟨S2000000x8, .i32⟩
  | .hbm, ⟨62, _⟩ => ⟨S2000000x1, .f32⟩
  | .hbm, ⟨63, _⟩ => ⟨S2000000x8, .f32⟩
  | .hbm, ⟨64, _⟩ => ⟨S_, .f32⟩
  | .hbm, ⟨65, _⟩ => ⟨S64x4x4096x8, .f32⟩
  | .hbm, ⟨66, _⟩ => ⟨S2000000x1, .i32⟩
  | .hbm, ⟨67, _⟩ => ⟨S2000000x1, .i32⟩
  | .hbm, ⟨68, _⟩ => ⟨S_, .i32⟩
  | .hbm, ⟨69, _⟩ => ⟨S2000000x8, .i32⟩
  | .hbm, ⟨70, _⟩ => ⟨S2000000x8, .i1⟩
  | .hbm, ⟨71, _⟩ => ⟨S_, .i32⟩
  | .hbm, ⟨72, _⟩ => ⟨S2000000x8, .i32⟩
  | .hbm, ⟨73, _⟩ => ⟨S2000000x8, .i32⟩
  | .hbm, ⟨74, _⟩ => ⟨S2000000x8, .i32⟩
  | .hbm, ⟨75, _⟩ => ⟨S_, .i32⟩
  | .hbm, ⟨76, _⟩ => ⟨S2000000x1, .i32⟩
  | .hbm, ⟨77, _⟩ => ⟨S2000000x1, .i1⟩
  | .hbm, ⟨78, _⟩ => ⟨S_, .i32⟩
  | .hbm, ⟨79, _⟩ => ⟨S2000000x1, .i32⟩
  | .hbm, ⟨80, _⟩ => ⟨S2000000x1, .i32⟩
  | .hbm, ⟨81, _⟩ => ⟨S2000000x1, .i32⟩
  | .hbm, ⟨82, _⟩ => ⟨S_, .i32⟩
  | .hbm, ⟨83, _⟩ => ⟨S2000000x1, .i32⟩
  | .hbm, ⟨84, _⟩ => ⟨S2000000x1, .i1⟩
  | .hbm, ⟨85, _⟩ => ⟨S_, .i32⟩
  | .hbm, ⟨86, _⟩ => ⟨S2000000x1, .i32⟩
  | .hbm, ⟨87, _⟩ => ⟨S2000000x1, .i32⟩
  | .hbm, ⟨88, _⟩ => ⟨S2000000x1, .i32⟩
  | .hbm, ⟨89, _⟩ => ⟨S_, .i32⟩
  | .hbm, ⟨90, _⟩ => ⟨S2000000x8, .i32⟩
  | .hbm, ⟨91, _⟩ => ⟨S2000000x8, .i1⟩
  | .hbm, ⟨92, _⟩ => ⟨S_, .i32⟩
  | .hbm, ⟨93, _⟩ => ⟨S2000000x8, .i32⟩
  | .hbm, ⟨94, _⟩ => ⟨S2000000x8, .i32⟩
  | .hbm, ⟨95, _⟩ => ⟨S2000000x8, .i32⟩
  | .hbm, ⟨96, _⟩ => ⟨S2000000x8, .i32⟩
  | .hbm, ⟨97, _⟩ => ⟨S2000000x8, .i32⟩
  | .hbm, ⟨98, _⟩ => ⟨S2000000x8x1, .i32⟩
  | .hbm, ⟨99, _⟩ => ⟨S2000000x8x1, .i32⟩
  | .hbm, ⟨100, _⟩ => ⟨S2000000x8x1, .i32⟩
  | .hbm, ⟨101, _⟩ => ⟨S2000000x8x1, .i32⟩
  | .hbm, ⟨102, _⟩ => ⟨S2000000x8x4, .i32⟩
  | .hbm, ⟨103, _⟩ => ⟨S64x4x4096x8, .f32⟩
  | .hbm, ⟨104, _⟩ => ⟨S_, .f32⟩
  | .hbm, ⟨105, _⟩ => ⟨S64x4x4096x8, .f32⟩
  | .hbm, ⟨106, _⟩ => ⟨S64x4x4096x8, .f32⟩
  | .hbm, ⟨107, _⟩ => ⟨S64x4x4096x8, .f32⟩
  | .hbm, ⟨108, _⟩ => ⟨S_, .f32⟩
  | .hbm, ⟨109, _⟩ => ⟨S64x4x4096x8, .f32⟩
  | .hbm, ⟨110, _⟩ => ⟨S64x4x4096x8, .i1⟩
  | .hbm, ⟨111, _⟩ => ⟨S_, .f32⟩
  | .hbm, ⟨112, _⟩ => ⟨S_, .f32⟩
  | .hbm, ⟨113, _⟩ => ⟨S64x4x4096x8, .f32⟩
  | .hbm, ⟨114, _⟩ => ⟨S64x4x4096x8, .f32⟩
  | .hbm, ⟨115, _⟩ => ⟨S64x4x4096x8, .f32⟩
  | .hbm, ⟨116, _⟩ => ⟨S64x4x4096x8, .f32⟩
  | .hbm, ⟨117, _⟩ => ⟨S64x4x4096x8, .f32⟩
  | .hbm, ⟨118, _⟩ => ⟨S64x4x4096x8, .f32⟩
  | .hbm, ⟨119, _⟩ => ⟨S64x4x4096x8, .f32⟩
  | .hbm, ⟨120, _⟩ => ⟨S64x4x4096x8, .f32⟩
  | .hbm, ⟨121, _⟩ => ⟨S64x4x4096x8, .i1⟩
  | .hbm, ⟨122, _⟩ => ⟨S64x4x4096x8, .i1⟩
  | .hbm, ⟨123, _⟩ => ⟨S64x4x4096x8, .f32⟩
  | .hbm, ⟨124, _⟩ => ⟨S64x4x4096x8, .f32⟩
  | _, _ => ⟨S2000000x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_c_2 : Ref sig .tc := ⟨.hbm, 31, rfl⟩
abbrev main_c_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_8 : Ref sig .tc := ⟨.hbm, 68, rfl⟩
abbrev main_v42 : Ref sig .tc := ⟨.hbm, 69, rfl⟩
abbrev main_v43 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_10 : Ref sig .tc := ⟨.hbm, 75, rfl⟩
abbrev main_v47 : Ref sig .tc := ⟨.hbm, 76, rfl⟩
abbrev main_v48 : Ref sig .tc := ⟨.hbm, 77, rfl⟩
abbrev main_c_11 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_v52 : Ref sig .tc := ⟨.hbm, 83, rfl⟩
abbrev main_v53 : Ref sig .tc := ⟨.hbm, 84, rfl⟩
abbrev main_c_13 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_14 : Ref sig .tc := ⟨.hbm, 89, rfl⟩
abbrev main_v57 : Ref sig .tc := ⟨.hbm, 90, rfl⟩
abbrev main_v58 : Ref sig .tc := ⟨.hbm, 91, rfl⟩
abbrev main_c_15 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_call2_cst : Ref sig .tc := ⟨.hbm, 104, rfl⟩
abbrev main_call2_v0 : Ref sig .tc := ⟨.hbm, 105, rfl⟩
abbrev main_v70 : Ref sig .tc := ⟨.hbm, 106, rfl⟩
abbrev main_v71 : Ref sig .tc := ⟨.hbm, 107, rfl⟩
abbrev main_cst_16 : Ref sig .tc := ⟨.hbm, 108, rfl⟩
abbrev main_v72 : Ref sig .tc := ⟨.hbm, 109, rfl⟩
abbrev main_v73 : Ref sig .tc := ⟨.hbm, 110, rfl⟩
abbrev main_cst_17 : Ref sig .tc := ⟨.hbm, 111, rfl⟩
abbrev main_cst_18 : Ref sig .tc := ⟨.hbm, 112, rfl⟩
abbrev main_call3_v0 : Ref sig .tc := ⟨.hbm, 113, rfl⟩
abbrev main_call3_v1 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩

abbrev nD : Nat := 1
abbrev τ : Topo := Topo.v7x

variable {F : FTy → Type} [FloatOps F]

class Facts₀ : Prop where
  slices_S2000000x5_S2000000x1_0_0 : S2000000x5.Slices ![0, 0] S2000000x1
  shapeCasts_S2000000x1_S2000000 : S2000000x1.ShapeCasts S2000000
  slices_S2000000x5_S2000000x1_0_1 : S2000000x5.Slices ![0, 1] S2000000x1
  slices_S2000000x5_S2000000x1_0_2 : S2000000x5.Slices ![0, 2] S2000000x1
  slices_S2000000x5_S2000000x1_0_3 : S2000000x5.Slices ![0, 3] S2000000x1
  slices_S2000000x5_S2000000x1_0_4 : S2000000x5.Slices ![0, 4] S2000000x1
  bcast_S_S2000000 : S_.BroadcastsInDim S2000000 (![] : Fin 0 → Fin S2000000.rank)
  shapeCasts_S1_S_ : S1.ShapeCasts S_
  bcast_S2000000_S2000000x1_0 : S2000000.BroadcastsInDim S2000000x1 (![0] : Fin 1 → Fin S2000000x1.rank)
  bcast_S2000000x1_S2000000x8_0_1 : S2000000x1.BroadcastsInDim S2000000x8 (![0, 1] : Fin 2 → Fin S2000000x8.rank)
  bcast_S_S2000000x8 : S_.BroadcastsInDim S2000000x8 (![] : Fin 0 → Fin S2000000x8.rank)
  bcast_S8_S2000000x8_1 : S8.BroadcastsInDim S2000000x8 (![1] : Fin 1 → Fin S2000000x8.rank)
  bcast_S_S64x4x4096x8 : S_.BroadcastsInDim S64x4x4096x8 (![] : Fin 0 → Fin S64x4x4096x8.rank)
  bcast_S_S2000000x1 : S_.BroadcastsInDim S2000000x1 (![] : Fin 0 → Fin S2000000x1.rank)
  bcast_S2000000x8_S2000000x8x1_0_1 : S2000000x8.BroadcastsInDim S2000000x8x1 (![0, 1] : Fin 2 → Fin S2000000x8x1.rank)
  concatenates_S2000000x8x1_S2000000x8x1_S2000000x8x1_S2000000x8x1_S2000000x8x4_d2 : Shape.Concatenates [S2000000x8x1, S2000000x8x1, S2000000x8x1, S2000000x8x1] S2000000x8x4 2
  gather_S21_S2000000x1_S2000000_n_0_n_n_0_1_1_wf : GatherDims.WF S21 S2000000x1 S2000000 [] [0] [] [0] [] 1 ![1]
  scatter_S64x4x4096x8_S2000000x8x4_S2000000x8_n_0123_0123_2_wf : ScatterDims.WF S64x4x4096x8 S2000000x8x4 S2000000x8 [] [0, 1, 2, 3] [0, 1, 2, 3] 2

variable [Facts₀]

def gather_S21_S2000000x1_S2000000_n_0_n_n_0_1_1 : GatherDims S21 S2000000x1 S2000000 where
  offsetDims := []
  collapsedSliceDims := [0]
  operandBatchingDims := []
  startIndicesBatchingDims := []
  startIndexMap := [0]
  indexVectorDim := 1
  sliceSizes := ![1]
  wf := gather_S21_S2000000x1_S2000000_n_0_n_n_0_1_1_wf
def scatter_S64x4x4096x8_S2000000x8x4_S2000000x8_n_0123_0123_2 : ScatterDims S64x4x4096x8 S2000000x8x4 S2000000x8 where
  updateWindowDims := []
  insertedWindowDims := [0, 1, 2, 3]
  scatterDimsToOperandDims := [0, 1, 2, 3]
  indexVectorDim := 2
  wf := scatter_S64x4x4096x8_S2000000x8x4_S2000000x8_n_0123_0123_2_wf

class Facts : Prop extends Facts₀ where

variable [Facts]
-- ==== Proof.BitsEntry.lean ====
/-
  The host program around the one kernel region.

  Before the region the host runs five stretches of operations (slices, comparisons, selects, a gather, a
  four-part concatenate, an overwrite-scatter into a zero array, and five reshapes [64,4,4096,8] -> [256,32768]);
  after it, one reshape back to [64,4,4096,8].  This module names the buffer contents the region is entered with
  (the fold of the stretches over the launch memory), shows the program is "stretches, region, tail",
  and checks that the tail only touches unscoped buffers, allocates nothing and writes none of the
  region's six arrays.
-/
import proofs.«180547_j79517024518423_1_alg».proof.Proof.Gen.Kernel.Launch
import proofs.«180547_j79517024518423_1_alg».proof.Proof.Gen.Kernel.Skeleton
import proofs.«180547_j79517024518423_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with -/

/-- The host stretches before the region, in order. -/
abbrev before : List (List (HloOp τ sig (Elt F))) := [hostOps0, hostOps0_1, hostOps0_2, hostOps0_3, hostOps0_4]

/-- The one host stretch after the region. -/
abbrev behind : List (List (HloOp τ sig (Elt F))) := [hostOps1]

/-- What every buffer of core `c` holds when the region starts: the launch memory after all stretches before it. -/
abbrev V0 (c : Dev nD) : Valuation τ sig (Elt F) :=
  StableHlo.after (List.flatten [hostOps0, hostOps0_1, hostOps0_2, hostOps0_3, hostOps0_4]) (fun b => m (c, b))
/-- The same, read at a reference of the core. -/
abbrev V (c : Dev nD) (b : Ref sig .tc) : Buf (Elt F) ((c : Thread nD τ).loc b) := V0 m c (Proc.devRef .tc b)

/-! ## No host operation allocates -/

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-! ## The program is: stretches, the region, the tail -/

/-- The whole host program reduces to the region continued by the tail, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨fresh0, fresh0_1, fresh0_2, fresh0_3, fresh0_4⟩) main_chain

/-! ## The tail's side conditions -/

/-- The tail touches only the region's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- The tail allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop

/-- The tail writes only its own result, which is none of the region's six arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

end Cert.Kernel.Fr

end
-- ==== Proof.BitsKept.lean ====
/-
  The eight argument arrays are written by no host operation: each operation writes only its own
  result buffer, and no result buffer is an argument.  So the region finds every argument as launched,
  and after the tail every argument still holds what it was launched with.
-/
import proofs.«180547_j79517024518423_1_alg».proof.Proof.BitsEntry

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation before the region writes argument 0: the region finds it as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes argument 1: the region finds it as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes argument 2: the region finds it as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes argument 3: the region finds it as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes argument 4: the region finds it as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes argument 5: the region finds it as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes argument 6: the region finds it as launched. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes argument 7: the region finds it as launched. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the tail: argument 0 ends as launched. -/
theorem W_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_arg0 m c

/-- Nor does the tail: argument 1 ends as launched. -/
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_arg1 m c

/-- Nor does the tail: argument 2 ends as launched. -/
theorem W_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_arg2 m c

/-- Nor does the tail: argument 3 ends as launched. -/
theorem W_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_arg3 m c

/-- Nor does the tail: argument 4 ends as launched. -/
theorem W_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_arg4 m c

/-- Nor does the tail: argument 5 ends as launched. -/
theorem W_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_arg5 m c

/-- Nor does the tail: argument 6 ends as launched. -/
theorem W_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_arg6 m c

/-- Nor does the tail: argument 7 ends as launched. -/
theorem W_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_arg7 m c

end Cert.Kernel.Fr

end
-- ==== Proof.BitsBody.lean ====
/-
  The kernel body at one grid point, and the run of the whole region.

  The grid has 16 points; at point t every window's block is rows 16t .. 16t+15 of its [256,32768]
  array.  The body reads the five input blocks whole, computes one [16,32768] value from them
  elementwise, and overwrites the output block whole with it.  So after the body the output's staging
  buffer holds that value of the five input blocks (`outBlock`), and each input's staging buffer still
  holds its block.  From this the library's launch theorem gives the run of the region and of the
  reshape after it.
-/
import proofs.«180547_j79517024518423_1_alg».proof.Proof.BitsEntry

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A window's block at a point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window is fetched at every point, never cut, never idle: whatever proof data has the entry
    contents as its arrays and leaves input blocks in place finds each input's staging buffer at its block. -/

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output's staging buffer -/

/-- The whole [16,32768] block as a rectangle. -/
abbrev whole : Rect S16x32768 := Rect.unit (s := S16x32768) ![0, 0] S16x32768.size inb_S16x32768_S16x32768_0_0

/-- The output block after the body, as a function of the five input blocks: the one store's value, laid over the
    whole block. -/
def outBlock (x0 x1 x2 x3 x4 : Vec F S16x32768 .f32) : Vec F S16x32768 .f32 :=
  View.canon [⟨whole, k0_pay1 (View.ld x0 whole) (View.ld x1 whole) (View.ld x2 whole) (View.ld x3 whole) (View.ld x4 whole)⟩]

/-- The one store covers the block. -/
theorem outCover (p0 : Vec F S16x32768 .f32) (y : S16x32768.Idx) :
    ∃ pc ∈ ([⟨whole, p0⟩] : List (View.Piece (Elt F) S16x32768 .f32)), y ∈ pc.1.set :=
  View.cover_of_tiled [⟨whole, p0⟩] S16x32768.size (by rfl) y

/-! ## The body's triple -/

set_option maxHeartbeats 1000000 in
/-- The body on six whole staging memrefs, the inputs' at contents `x0 … x4` and the output's at anything, runs to a
    state with the inputs' as they were and the output's at `outBlock x0 … x4`. -/
theorem sound_kernel (c : Dev nD) (E : Set ℕ) (i : grid0.Coords)
    (arg1 : Memref sig .tc .vmem S16x32768 .f32) (harg1 : arg1.IsWhole) (arg2 : Memref sig .tc .vmem S16x32768 .f32) (harg2 : arg2.IsWhole)
    (arg3 : Memref sig .tc .vmem S16x32768 .f32) (harg3 : arg3.IsWhole) (arg4 : Memref sig .tc .vmem S16x32768 .f32) (harg4 : arg4.IsWhole)
    (arg5 : Memref sig .tc .vmem S16x32768 .f32) (harg5 : arg5.IsWhole) (arg6 : Memref sig .tc .vmem S16x32768 .f32) (harg6 : arg6.IsWhole)
    (x0 x1 x2 x3 x4 : Vec F S16x32768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__elementwise_kernel i arg1 harg1 arg2 harg2 arg3 harg3 arg4 harg4 arg5 harg5 arg6 harg6) K := by
  simp only [cc0__elementwise_kernel_eq_skeleton]; unfold cc0__elementwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The proof data of the region -/

/-- On core `c`: the arrays as the region finds them; after the body at point `t` each input's staging buffer at its block
    and the output's at `outBlock` of the five input blocks; the invariant is the scoped rest, untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t
    = outBlock (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' staging buffers hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run of the whole program -/

set_option backward.isDefEq.respectTransparency.types false in
/-- From any launch memory with zero counters every weakly fair execution of the program terminates, and in every final
    state each of the region's arrays holds what the proof data computes for it and every other unscoped buffer what the
    tail leaves there. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

end Cert.Kernel.Fr

end
-- ==== Proof.BitsFrame.lean ====
/-
  The frame: the program runs to the end without a fault and its eight argument arrays end as launched.
  No argument is one of the region's six arrays (those are the five reshaped inputs and the region's
  result), so each argument is a buffer that bypasses the region: the run leaves it at what the tail
  leaves, and the tail, like the stretches before the region, never writes an argument.
-/
import proofs.«180547_j79517024518423_1_alg».proof.Proof.BitsKept
import proofs.«180547_j79517024518423_1_alg».proof.Proof.BitsBody

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_arg0 m (dats m) c),
      ((h c).2 main_arg1 (Pipeline.mem_restRefs_of main_arg1 (by decide) (by decide))).trans (W_arg1 m (dats m) c),
      ((h c).2 main_arg2 (Pipeline.mem_restRefs_of main_arg2 (by decide) (by decide))).trans (W_arg2 m (dats m) c),
      ((h c).2 main_arg3 (Pipeline.mem_restRefs_of main_arg3 (by decide) (by decide))).trans (W_arg3 m (dats m) c),
      ((h c).2 main_arg4 (Pipeline.mem_restRefs_of main_arg4 (by decide) (by decide))).trans (W_arg4 m (dats m) c),
      ((h c).2 main_arg5 (Pipeline.mem_restRefs_of main_arg5 (by decide) (by decide))).trans (W_arg5 m (dats m) c),
      ((h c).2 main_arg6 (Pipeline.mem_restRefs_of main_arg6 (by decide) (by decide))).trans (W_arg6 m (dats m) c),
      ((h c).2 main_arg7 (Pipeline.mem_restRefs_of main_arg7 (by decide) (by decide))).trans (W_arg7 m (dats m) c)⟩) (run_main m ρ)

end Cert.Kernel.Fr

end
-- ==== Proof.IdealEntry.lean ====
/-
  The host program around the one kernel region.

  Before the region the host runs five stretches of operations (slices, comparisons, selects, a gather, a
  four-part concatenate, an overwrite-scatter into a zero array, and five reshapes [64,4,4096,8] -> [256,32768]);
  after it, one reshape back to [64,4,4096,8].  This module names the buffer contents the region is entered with
  (the fold of the stretches over the launch memory), shows the program is "stretches, region, tail",
  and checks that the tail only touches unscoped buffers, allocates nothing and writes none of the
  region's six arrays.
-/
import proofs.«180547_j79517024518423_1_alg».proof.Proof.Gen.KernelIdeal.Launch
import proofs.«180547_j79517024518423_1_alg».proof.Proof.Gen.KernelIdeal.Skeleton
import proofs.«180547_j79517024518423_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with -/

/-- The host stretches before the region, in order. -/
abbrev before : List (List (HloOp τ sig (Elt F))) := [hostOps0, hostOps0_1, hostOps0_2, hostOps0_3, hostOps0_4]

/-- The one host stretch after the region. -/
abbrev behind : List (List (HloOp τ sig (Elt F))) := [hostOps1]

/-- What every buffer of core `c` holds when the region starts: the launch memory after all stretches before it. -/
abbrev V0 (c : Dev nD) : Valuation τ sig (Elt F) :=
  StableHlo.after (List.flatten [hostOps0, hostOps0_1, hostOps0_2, hostOps0_3, hostOps0_4]) (fun b => m (c, b))
/-- The same, read at a reference of the core. -/
abbrev V (c : Dev nD) (b : Ref sig .tc) : Buf (Elt F) ((c : Thread nD τ).loc b) := V0 m c (Proc.devRef .tc b)

/-! ## No host operation allocates -/

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-! ## The program is: stretches, the region, the tail -/

/-- The whole host program reduces to the region continued by the tail, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨fresh0, fresh0_1, fresh0_2, fresh0_3, fresh0_4⟩) main_chain

/-! ## The tail's side conditions -/

/-- The tail touches only the region's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- The tail allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop

/-- The tail writes only its own result, which is none of the region's six arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

end Cert.KernelIdeal.Fr

end
-- ==== Proof.IdealKept.lean ====
/-
  The eight argument arrays are written by no host operation: each operation writes only its own
  result buffer, and no result buffer is an argument.  So the region finds every argument as launched,
  and after the tail every argument still holds what it was launched with.
-/
import proofs.«180547_j79517024518423_1_alg».proof.Proof.IdealEntry

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation before the region writes argument 0: the region finds it as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes argument 1: the region finds it as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes argument 2: the region finds it as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes argument 3: the region finds it as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes argument 4: the region finds it as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes argument 5: the region finds it as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes argument 6: the region finds it as launched. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes argument 7: the region finds it as launched. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the tail: argument 0 ends as launched. -/
theorem W_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_arg0 m c

/-- Nor does the tail: argument 1 ends as launched. -/
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_arg1 m c

/-- Nor does the tail: argument 2 ends as launched. -/
theorem W_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_arg2 m c

/-- Nor does the tail: argument 3 ends as launched. -/
theorem W_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_arg3 m c

/-- Nor does the tail: argument 4 ends as launched. -/
theorem W_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_arg4 m c

/-- Nor does the tail: argument 5 ends as launched. -/
theorem W_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_arg5 m c

/-- Nor does the tail: argument 6 ends as launched. -/
theorem W_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_arg6 m c

/-- Nor does the tail: argument 7 ends as launched. -/
theorem W_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_arg7 m c

end Cert.KernelIdeal.Fr

end
-- ==== Proof.IdealBody.lean ====
/-
  The kernel body at one grid point, and the run of the whole region.

  The grid has 16 points; at point t every window's block is rows 16t .. 16t+15 of its [256,32768]
  array.  The body reads the five input blocks whole, computes one [16,32768] value from them
  elementwise, and overwrites the output block whole with it.  So after the body the output's staging
  buffer holds that value of the five input blocks (`outBlock`), and each input's staging buffer still
  holds its block.  From this the library's launch theorem gives the run of the region and of the
  reshape after it.
-/
import proofs.«180547_j79517024518423_1_alg».proof.Proof.IdealEntry

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A window's block at a point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window is fetched at every point, never cut, never idle: whatever proof data has the entry
    contents as its arrays and leaves input blocks in place finds each input's staging buffer at its block. -/

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output's staging buffer -/

/-- The whole [16,32768] block as a rectangle. -/
abbrev whole : Rect S16x32768 := Rect.unit (s := S16x32768) ![0, 0] S16x32768.size inb_S16x32768_S16x32768_0_0

/-- The output block after the body, as a function of the five input blocks: the one store's value, laid over the
    whole block. -/
def outBlock (x0 x1 x2 x3 x4 : Vec F S16x32768 .f32) : Vec F S16x32768 .f32 :=
  View.canon [⟨whole, k0_pay1 (View.ld x0 whole) (View.ld x1 whole) (View.ld x2 whole) (View.ld x3 whole) (View.ld x4 whole)⟩]

/-- The one store covers the block. -/
theorem outCover (p0 : Vec F S16x32768 .f32) (y : S16x32768.Idx) :
    ∃ pc ∈ ([⟨whole, p0⟩] : List (View.Piece (Elt F) S16x32768 .f32)), y ∈ pc.1.set :=
  View.cover_of_tiled [⟨whole, p0⟩] S16x32768.size (by rfl) y

/-! ## The body's triple -/

set_option maxHeartbeats 1000000 in
/-- The body on six whole staging memrefs, the inputs' at contents `x0 … x4` and the output's at anything, runs to a
    state with the inputs' as they were and the output's at `outBlock x0 … x4`. -/
theorem sound_kernel (c : Dev nD) (E : Set ℕ) (i : grid0.Coords)
    (arg1 : Memref sig .tc .vmem S16x32768 .f32) (harg1 : arg1.IsWhole) (arg2 : Memref sig .tc .vmem S16x32768 .f32) (harg2 : arg2.IsWhole)
    (arg3 : Memref sig .tc .vmem S16x32768 .f32) (harg3 : arg3.IsWhole) (arg4 : Memref sig .tc .vmem S16x32768 .f32) (harg4 : arg4.IsWhole)
    (arg5 : Memref sig .tc .vmem S16x32768 .f32) (harg5 : arg5.IsWhole) (arg6 : Memref sig .tc .vmem S16x32768 .f32) (harg6 : arg6.IsWhole)
    (x0 x1 x2 x3 x4 : Vec F S16x32768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__elementwise_kernel i arg1 harg1 arg2 harg2 arg3 harg3 arg4 harg4 arg5 harg5 arg6 harg6) K := by
  simp only [cc0__elementwise_kernel_eq_skeleton]; unfold cc0__elementwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The proof data of the region -/

/-- On core `c`: the arrays as the region finds them; after the body at point `t` each input's staging buffer at its block
    and the output's at `outBlock` of the five input blocks; the invariant is the scoped rest, untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t
    = outBlock (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' staging buffers hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run of the whole program -/

set_option backward.isDefEq.respectTransparency.types false in
/-- From any launch memory with zero counters every weakly fair execution of the program terminates, and in every final
    state each of the region's arrays holds what the proof data computes for it and every other unscoped buffer what the
    tail leaves there. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

end Cert.KernelIdeal.Fr

end
-- ==== Proof.IdealFrame.lean ====
/-
  The frame: the program runs to the end without a fault and its eight argument arrays end as launched.
  No argument is one of the region's six arrays (those are the five reshaped inputs and the region's
  result), so each argument is a buffer that bypasses the region: the run leaves it at what the tail
  leaves, and the tail, like the stretches before the region, never writes an argument.
-/
import proofs.«180547_j79517024518423_1_alg».proof.Proof.IdealKept
import proofs.«180547_j79517024518423_1_alg».proof.Proof.IdealBody

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_arg0 m (dats m) c),
      ((h c).2 main_arg1 (Pipeline.mem_restRefs_of main_arg1 (by decide) (by decide))).trans (W_arg1 m (dats m) c),
      ((h c).2 main_arg2 (Pipeline.mem_restRefs_of main_arg2 (by decide) (by decide))).trans (W_arg2 m (dats m) c),
      ((h c).2 main_arg3 (Pipeline.mem_restRefs_of main_arg3 (by decide) (by decide))).trans (W_arg3 m (dats m) c),
      ((h c).2 main_arg4 (Pipeline.mem_restRefs_of main_arg4 (by decide) (by decide))).trans (W_arg4 m (dats m) c),
      ((h c).2 main_arg5 (Pipeline.mem_restRefs_of main_arg5 (by decide) (by decide))).trans (W_arg5 m (dats m) c),
      ((h c).2 main_arg6 (Pipeline.mem_restRefs_of main_arg6 (by decide) (by decide))).trans (W_arg6 m (dats m) c),
      ((h c).2 main_arg7 (Pipeline.mem_restRefs_of main_arg7 (by decide) (by decide))).trans (W_arg7 m (dats m) c)⟩) (run_main m ρ)

end Cert.KernelIdeal.Fr

end
-- ==== Proof.Spec.lean ====
/-
  The entry-by-entry formula both programs compute.

  For five arrays l, a, h, v, e of one shape, with c5 and c1 the float constants of words 0x3E4CCCCD and
  0x3F800000 and 0 the constant of word 0x00000000:

      product   = l * max(a, 0)
      magnitude = | (h + v) + e * (if e > 0 then c5 else c1) |
      formula   = if l < magnitude then l else (if product < magnitude then magnitude else product)

  Every operation acts on each entry by itself, so the formula commutes with any re-indexing of the
  arrays; in particular with reshaping [64,4,4096,8] to [256,32768] and back.  The constants stay as
  their binary words: the same word stands on both sides and is never evaluated.
-/
import Idealize.ShloMosaic.PureOps
import Idealize.ShloMosaic.Lib.Pipeline.Value

noncomputable section

namespace Cert.Pointwise

open Idealize.ShloMosaic

variable {F : FTy → Type} [FloatOps F]

/-- `l * max(a, 0)`, entry by entry. -/
def product {s : Shape} (l a : FVec F s .f32) : FVec F s .f32 :=
  mulf l (maximumf a (broadcast s (FloatOps.ofBits .f32 0x00000000#32)))

/-- `|(h + v) + e * (if e > 0 then c5 else c1)|`, entry by entry. -/
def magnitude {s : Shape} (h v e : FVec F s .f32) : FVec F s .f32 :=
  absf (addf (addf h v) (mulf e (select (cmpf .ogt e (broadcast s (FloatOps.ofBits .f32 0x00000000#32)))
    (broadcast s (FloatOps.ofBits .f32 0x3E4CCCCD#32)) (broadcast s (FloatOps.ofBits .f32 0x3F800000#32)))))

/-- `l` where `l < magnitude`, elsewhere the larger of `product` and `magnitude` (the product on a tie). -/
def formula {s : Shape} (l a h v e : FVec F s .f32) : FVec F s .f32 :=
  select (cmpf .olt l (magnitude h v e)) l
    (select (cmpf .olt (product l a) (magnitude h v e)) (magnitude h v e) (product l a))

/-- The formula reads each array at one index only: re-indexing the five arrays re-indexes the result. -/
theorem formula_reindex {s t : Shape} (f : t.Idx → s.Idx) (l a h v e : FVec F s .f32) :
    formula (fun j => l (f j)) (fun j => a (f j)) (fun j => h (f j)) (fun j => v (f j)) (fun j => e (f j))
      = fun j => formula l a h v e (f j) := rfl

/-- In particular it commutes with a reshape. -/
theorem formula_shapeCast {s t : Shape} (hc : s.ShapeCasts t) (l a h v e : FVec F s .f32) :
    formula (shapeCast t l hc) (shapeCast t a hc) (shapeCast t h hc) (shapeCast t v hc) (shapeCast t e hc)
      = shapeCast t (formula l a h v e) hc := rfl

/-- Reshaped and reshaped back, the formula of the reshaped arrays is the formula of the arrays. -/
theorem formula_there_and_back {s t : Shape} (hc : s.ShapeCasts t) (hc' : t.ShapeCasts s) (l a h v e : FVec F s .f32) :
    shapeCast s (formula (shapeCast t l hc) (shapeCast t a hc) (shapeCast t h hc) (shapeCast t v hc) (shapeCast t e hc)) hc'
      = formula l a h v e := by
  rw [formula_shapeCast, shapeCast_shapeCast]

end Cert.Pointwise

end
-- ==== Proof.IdealValue.lean ====
/-
  From the blocks to the whole array.

  At grid point t all six windows sit at block (t, 0): rows 16t .. 16t+15, all 32768 columns.  The body's
  stored value is the pointwise formula of the five loaded blocks, and a block of the formula of five arrays
  is the formula of their blocks, so point t writes back block t of `formula` of the five input arrays as the
  region finds them.  The sixteen blocks cover all 256 rows, hence the region's result array ends holding the
  formula of the five input arrays, entry by entry.
-/
import proofs.«180547_j79517024518423_1_alg».proof.Proof.IdealBody
import proofs.«180547_j79517024518423_1_alg».proof.Proof.Spec
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Pointwise

/-- The whole-block rectangle starts at the origin. -/
theorem origin : (![0, 0] : Fin 2 → Nat) = fun _ => 0 := funext fun a => by fin_cases a <;> rfl

/-- The body's stored value is the pointwise formula of its five loaded blocks (a cast to the same shape is the
    identity). -/
theorem pay_formula (x0 x1 x2 x3 x4 : Vec F S16x32768 .f32) : k0_pay1 x0 x1 x2 x3 x4 = formula x0 x1 x2 x3 x4 := by
  unfold k0_pay1
  simp only [shapeCast_self]
  rfl

/-- Decided over the sixteen points: every input window sits at the output window's block index. -/
theorem idx_same : ∀ t : Fin cfg0.N, win0_0.index t = win0_5.index t ∧ win0_1.index t = win0_5.index t ∧ win0_2.index t = win0_5.index t ∧ win0_3.index t = win0_5.index t ∧ win0_4.index t = win0_5.index t :=
  (by decide +kernel : ∀ t : Fin grid0.N, _)

/-- Decided over the sixteen points: the output window's column-block is 0. -/
theorem idx_col : ∀ t : Fin cfg0.N, win0_5.index t (1 : Fin 2) = 0 :=
  (by decide +kernel : ∀ t : Fin grid0.N, _)

/-- Every row-block is some point's. -/
theorem idx_onto : ∀ q : Fin 16, ∃ t : Fin cfg0.N, win0_5.index t = ![q.val, 0] :=
  (by decide +kernel : ∀ q : Fin 16, ∃ t : Fin grid0.N, win0_5.index t = ![q.val, 0])

/-! An element of a window's block at point `t` sits in the array, on each axis, at the block index times the block's size
    plus its own coordinate. -/

theorem emb_val0 (t : Fin cfg0.N) (y : ((cfg0.win 0).xblock (cfg0.grid.coords t)).Idx) (a : Fin 2) :
    ((((cfg0.win 0).blk t).view.emb y) a : Nat) = win0_0.index t a * win0_0.size a + (y a : Nat) := by
  show (((View.whole main_v70).slice (win0_0.rect t)).emb y a : Nat) = _
  rw [View.emb_slice, Function.Embedding.trans_apply, View.emb_whole, Function.Embedding.refl_apply]
  exact Pipeline.Window.rect_emb_val win0_0 t y a
theorem emb_val1 (t : Fin cfg0.N) (y : ((cfg0.win 1).xblock (cfg0.grid.coords t)).Idx) (a : Fin 2) :
    ((((cfg0.win 1).blk t).view.emb y) a : Nat) = win0_1.index t a * win0_1.size a + (y a : Nat) := by
  show (((View.whole main_v71).slice (win0_1.rect t)).emb y a : Nat) = _
  rw [View.emb_slice, Function.Embedding.trans_apply, View.emb_whole, Function.Embedding.refl_apply]
  exact Pipeline.Window.rect_emb_val win0_1 t y a
theorem emb_val2 (t : Fin cfg0.N) (y : ((cfg0.win 2).xblock (cfg0.grid.coords t)).Idx) (a : Fin 2) :
    ((((cfg0.win 2).blk t).view.emb y) a : Nat) = win0_2.index t a * win0_2.size a + (y a : Nat) := by
  show (((View.whole main_v72).slice (win0_2.rect t)).emb y a : Nat) = _
  rw [View.emb_slice, Function.Embedding.trans_apply, View.emb_whole, Function.Embedding.refl_apply]
  exact Pipeline.Window.rect_emb_val win0_2 t y a
theorem emb_val3 (t : Fin cfg0.N) (y : ((cfg0.win 3).xblock (cfg0.grid.coords t)).Idx) (a : Fin 2) :
    ((((cfg0.win 3).blk t).view.emb y) a : Nat) = win0_3.index t a * win0_3.size a + (y a : Nat) := by
  show (((View.whole main_v73).slice (win0_3.rect t)).emb y a : Nat) = _
  rw [View.emb_slice, Function.Embedding.trans_apply, View.emb_whole, Function.Embedding.refl_apply]
  exact Pipeline.Window.rect_emb_val win0_3 t y a
theorem emb_val4 (t : Fin cfg0.N) (y : ((cfg0.win 4).xblock (cfg0.grid.coords t)).Idx) (a : Fin 2) :
    ((((cfg0.win 4).blk t).view.emb y) a : Nat) = win0_4.index t a * win0_4.size a + (y a : Nat) := by
  show (((View.whole main_v74).slice (win0_4.rect t)).emb y a : Nat) = _
  rw [View.emb_slice, Function.Embedding.trans_apply, View.emb_whole, Function.Embedding.refl_apply]
  exact Pipeline.Window.rect_emb_val win0_4 t y a
theorem emb_val5 (t : Fin cfg0.N) (y : ((cfg0.win 5).xblock (cfg0.grid.coords t)).Idx) (a : Fin 2) :
    ((((cfg0.win 5).blk t).view.emb y) a : Nat) = win0_5.index t a * win0_5.size a + (y a : Nat) := by
  show (((View.whole main_v75).slice (win0_5.rect t)).emb y a : Nat) = _
  rw [View.emb_slice, Function.Embedding.trans_apply, View.emb_whole, Function.Embedding.refl_apply]
  exact Pipeline.Window.rect_emb_val win0_5 t y a

/-- For ANY five [256,32768] arrays: the body's result on their blocks at point `t`, read through the output window, is
    block `t` of their formula. -/
theorem block_formula (A0 A1 A2 A3 A4 : S256x32768.Idx → Elt F .f32) (t : Fin cfg0.N) :
    (cfg0.win 5).cut (grid0.coords t)
      (outBlock (((cfg0.win 0).blk t).view.read (Elt F) A0) (((cfg0.win 1).blk t).view.read (Elt F) A1)
        (((cfg0.win 2).blk t).view.read (Elt F) A2) (((cfg0.win 3).blk t).view.read (Elt F) A3)
        (((cfg0.win 4).blk t).view.read (Elt F) A4))
      = ((cfg0.win 5).blk t).view.read (Elt F) (formula A0 A1 A2 A3 A4) := by
  obtain ⟨e0, e1, e2, e3, e4⟩ := idx_same t
  have h0 : (fun y => A0 (((cfg0.win 0).blk t).view.emb y)) = fun y => A0 (((cfg0.win 5).blk t).view.emb y) := by
    funext y; refine congrArg A0 ?_
    funext a; apply Fin.ext
    rw [emb_val0, emb_val5, e0]
  have h1 : (fun y => A1 (((cfg0.win 1).blk t).view.emb y)) = fun y => A1 (((cfg0.win 5).blk t).view.emb y) := by
    funext y; refine congrArg A1 ?_
    funext a; apply Fin.ext
    rw [emb_val1, emb_val5, e1]
  have h2 : (fun y => A2 (((cfg0.win 2).blk t).view.emb y)) = fun y => A2 (((cfg0.win 5).blk t).view.emb y) := by
    funext y; refine congrArg A2 ?_
    funext a; apply Fin.ext
    rw [emb_val2, emb_val5, e2]
  have h3 : (fun y => A3 (((cfg0.win 3).blk t).view.emb y)) = fun y => A3 (((cfg0.win 5).blk t).view.emb y) := by
    funext y; refine congrArg A3 ?_
    funext a; apply Fin.ext
    rw [emb_val3, emb_val5, e3]
  have h4 : (fun y => A4 (((cfg0.win 4).blk t).view.emb y)) = fun y => A4 (((cfg0.win 5).blk t).view.emb y) := by
    funext y; refine congrArg A4 ?_
    funext a; apply Fin.ext
    rw [emb_val4, emb_val5, e4]
  show outBlock (fun y => A0 (((cfg0.win 0).blk t).view.emb y)) (fun y => A1 (((cfg0.win 1).blk t).view.emb y))
      (fun y => A2 (((cfg0.win 2).blk t).view.emb y)) (fun y => A3 (((cfg0.win 3).blk t).view.emb y))
      (fun y => A4 (((cfg0.win 4).blk t).view.emb y))
    = fun j => formula A0 A1 A2 A3 A4 (((cfg0.win 5).blk t).view.emb j)
  refine (congr (congr (congr (congr (congrArg outBlock h0) h1) h2) h3) h4).trans ?_
  unfold outBlock
  rw [View.canon_unit_zero origin]
  simp only [View.ld_unit_zero (S := S16x32768) origin]
  rw [pay_formula]
  rfl

/-- What point `t` writes back is block `t` of the formula of the five input arrays as the region finds them. -/
theorem flushed_formula (c : Dev nD) (t : Fin cfg0.N) :
    (dats m 0 c).flushed 5 t = ((cfg0.win 5).blk t).view.read (Elt F)
      (formula (V m c main_v70) (V m c main_v71) (V m c main_v72) (V m c main_v73) (V m c main_v74)) := by
  show (cfg0.win 5).cut (grid0.coords t) ((dats m 0 c).after 5 t) = _
  rw [after5]
  exact block_formula (V m c main_v70) (V m c main_v71) (V m c main_v72) (V m c main_v73) (V m c main_v74) t

/-- An index of the array is in point `t`'s block iff each coordinate is in the block's range on its axis. -/
theorem mem_block (t : Fin cfg0.N) (i : S256x32768.Idx) :
    i ∈ ((cfg0.win 5).blk t).view.set ↔ ∀ a : Fin 2, win0_5.index t a * S16x32768.size a ≤ (i a).val ∧ (i a).val < win0_5.index t a * S16x32768.size a + S16x32768.size a := by
  show i ∈ ((View.whole main_v75).slice (win0_5.rect t)).set ↔ _
  rw [View.set_slice_whole, Rect.mem_set_unit]
  exact Iff.rfl

/-- Row r lies in the block of the point whose row-block is r / 16: the blocks cover the array. -/
theorem covered (i : S256x32768.Idx) :
    ∃ t : Fin cfg0.N, (cfg0.win 5).flush t = true ∧ i ∈ ((cfg0.win 5).blk t).view.set := by
  have hi0 : (i 0).val < 256 := (i 0).isLt
  have hi1 : (i 1).val < 32768 := (i 1).isLt
  obtain ⟨t, ht⟩ := idx_onto ⟨(i 0).val / 16, by omega⟩
  have q0 : win0_5.index t (0 : Fin 2) = (i 0).val / 16 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 32768 ≤ (i 1).val ∧ (i 1).val < win0_5.index t (1 : Fin 2) * 32768 + 32768; omega

/-- The region's result array after the run: the formula of the five input arrays as the region finds them. -/
theorem result_formula (c : Dev nD) : (dats m 0 c).arrAt 5 cfg0.N
    = formula (V m c main_v70) (V m c main_v71) (V m c main_v72) (V m c main_v73) (V m c main_v74) :=
  (dats m 0 c).arrAt_eq_of_cover 5 _ (fun t _ => flushed_formula m c t) covered

end Cert.KernelIdeal.Fr

end
-- ==== Proof.IdealInputs.lean ====
/-
  Four of the region's five input arrays at region entry: each is one reshape [64,4,4096,8] -> [256,32768] of an
  argument array, and no host operation before the region writes an argument, so each is the reshape of the
  argument as launched.
-/
import proofs.«180547_j79517024518423_1_alg».proof.Proof.IdealEntry

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

/-- The region's input array 1 is argument 1, reshaped. -/
theorem V_v71 (c : Dev nD) : (V m c main_v71 : S256x32768.Idx → Elt F .f32)
    = shapeCast S256x32768 (m ((c : Thread nD τ).loc main_arg1)) shapeCasts_S64x4x4096x8_S256x32768 := by
  dsimp only [V, V0]
  simp only [hostOps0, hostOps0_1, hostOps0_2, hostOps0_3, hostOps0_4, List.flatten_cons, List.flatten_nil, List.append_nil, List.cons_append, List.nil_append]
  after_results_simp
  rfl

/-- The region's input array 2 is argument 2, reshaped. -/
theorem V_v72 (c : Dev nD) : (V m c main_v72 : S256x32768.Idx → Elt F .f32)
    = shapeCast S256x32768 (m ((c : Thread nD τ).loc main_arg2)) shapeCasts_S64x4x4096x8_S256x32768 := by
  dsimp only [V, V0]
  simp only [hostOps0, hostOps0_1, hostOps0_2, hostOps0_3, hostOps0_4, List.flatten_cons, List.flatten_nil, List.append_nil, List.cons_append, List.nil_append]
  after_results_simp
  rfl

/-- The region's input array 3 is argument 3, reshaped. -/
theorem V_v73 (c : Dev nD) : (V m c main_v73 : S256x32768.Idx → Elt F .f32)
    = shapeCast S256x32768 (m ((c : Thread nD τ).loc main_arg3)) shapeCasts_S64x4x4096x8_S256x32768 := by
  dsimp only [V, V0]
  simp only [hostOps0, hostOps0_1, hostOps0_2, hostOps0_3, hostOps0_4, List.flatten_cons, List.flatten_nil, List.append_nil, List.cons_append, List.nil_append]
  after_results_simp
  rfl

/-- The region's input array 4 is argument 4, reshaped. -/
theorem V_v74 (c : Dev nD) : (V m c main_v74 : S256x32768.Idx → Elt F .f32)
    = shapeCast S256x32768 (m ((c : Thread nD τ).loc main_arg4)) shapeCasts_S64x4x4096x8_S256x32768 := by
  dsimp only [V, V0]
  simp only [hostOps0, hostOps0_1, hostOps0_2, hostOps0_3, hostOps0_4, List.flatten_cons, List.flatten_nil, List.append_nil, List.cons_append, List.nil_append]
  after_results_simp
  rfl

end Cert.KernelIdeal.Fr

end
-- ==== Proof.LibAfterAppend.lean ====
/-
  Running a list of host operations: the contents after `A ++ B` are the contents after `B`, started from the contents after `A`.
  (Lets a long operation list be cut at any place, the first part's contents then carried as one unknown.)
-/
import Idealize.ShloMosaic.Lib.StableHlo.Run

namespace Idealize.ShloMosaic.StableHlo

variable {τ : Topo} {sig : RefSig} {Val : EltTy → Type}

/-- The fold over an appended list is the fold over the second part of the fold over the first. -/
theorem after_append (A B : List (HloOp τ sig Val)) (M : Valuation τ sig Val) :
    after (A ++ B) M = after B (after A M) := by
  induction A generalizing M with
  | nil => rfl
  | cons a A ih => simp only [List.cons_append, after_cons, ih]

/-- Cut at position `n`: the first `n` operations, then the rest. -/
theorem after_take_drop (n : Nat) (L : List (HloOp τ sig Val)) (M : Valuation τ sig Val) :
    after L M = after (L.drop n) (after (L.take n) M) := by
  rw [← after_append, List.take_append_drop]

end Idealize.ShloMosaic.StableHlo
-- ==== Proof.IdealLookup.lean ====
/-
  The region's first input array at region entry: the reshape [64,4,4096,8] -> [256,32768] of the array the host builds before
  the region by an overwrite-scatter into zeros (buffer 69, written by the first 96 host operations; the five operations after
  them are the reshapes).
-/
import proofs.«180547_j79517024518423_1_alg».proof.Proof.IdealEntry
import proofs.«180547_j79517024518423_1_alg».proof.Proof.LibAfterAppend

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

/-- The array the kernel's program scatters into zeros: buffer 69 after the first 96 host operations, from contents `M`. -/
def scattered (M : Valuation τ sig (Elt F)) : S64x4x4096x8.Idx → Elt F .f32 :=
  after (List.take 96 (List.flatten [hostOps0, hostOps0_1, hostOps0_2, hostOps0_3, hostOps0_4])) M (Proc.devRef .tc main_v69)

/-- The region's input array 0 is that array, reshaped. -/
theorem V_v70 (c : Dev nD) : (V m c main_v70 : S256x32768.Idx → Elt F .f32)
    = shapeCast S256x32768 (scattered (fun b => m (c, b))) shapeCasts_S64x4x4096x8_S256x32768 := by
  dsimp only [V, V0]
  rw [after_take_drop 96 (List.flatten [hostOps0, hostOps0_1, hostOps0_2, hostOps0_3, hostOps0_4]) (fun b => m (c, b))]
  unfold scattered
  generalize after (List.take 96 (List.flatten [hostOps0, hostOps0_1, hostOps0_2, hostOps0_3, hostOps0_4])) (fun b => m (c, b)) = W
  simp only [hostOps0, hostOps0_1, hostOps0_2, hostOps0_3, hostOps0_4, List.flatten_cons, List.flatten_nil, List.append_nil, List.cons_append, List.nil_append, List.drop_succ_cons, List.drop_zero]
  after_results_simp
  rfl

end Cert.KernelIdeal.Fr

end
-- ==== Proof.IdealResult.lean ====
/-
  The program's result: the one host operation after the region reshapes the region's [256,32768] result array back to
  [64,4,4096,8].
-/
import proofs.«180547_j79517024518423_1_alg».proof.Proof.IdealBody

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

/-- After the tail the result buffer holds the region's result array, reshaped back. -/
theorem tail_result (c : Dev nD) : (Pipeline.afterTail₀ cfgs (dats m) 0 (V0 m) [hostOps1] c main_v76 : S64x4x4096x8.Idx → Elt F .f32)
    = shapeCast S64x4x4096x8 ((dats m 0 c).arrAt 5 cfg0.N) shapeCasts_S256x32768_S64x4x4096x8 := by
  unfold Pipeline.afterTail₀
  show StableHlo.after hostOps1 _ (Proc.devRef .tc main_v76) = _
  after_results
  have hw := Pipeline.withArrays_arr spec0 launch0.win.arr_inj c (V0 m c) (fun w => (dats m 0 c).arrAt w cfg0.N) 5
  exact congrArg (fun X => shapeCast S64x4x4096x8 X shapeCasts_S256x32768_S64x4x4096x8) hw

end Cert.KernelIdeal.Fr

end
-- ==== Proof.IdealRun.lean ====
/-
  The idealized kernel's run with its result named.

  The result buffer bypasses the region, so after the run it holds what the tail leaves: the region's result array
  reshaped back to [64,4,4096,8].  That array is the pointwise formula of the five input arrays, each of which is a
  [64,4,4096,8] array reshaped to [256,32768]; the formula commutes with the reshape, and reshaping there and back is
  the identity.  So the result is the formula of the scattered array (buffer 69, built from arguments 0, 5, 6, 7) and
  arguments 1 .. 4, entry by entry.
-/
import proofs.«180547_j79517024518423_1_alg».proof.Proof.IdealFrame
import proofs.«180547_j79517024518423_1_alg».proof.Proof.IdealValue
import proofs.«180547_j79517024518423_1_alg».proof.Proof.IdealInputs
import proofs.«180547_j79517024518423_1_alg».proof.Proof.IdealLookup
import proofs.«180547_j79517024518423_1_alg».proof.Proof.IdealResult

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Pointwise

/-- The program's result as a function of the launch memory: the formula of the scattered array and arguments 1 .. 4. -/
def answer (c : Dev nD) : S64x4x4096x8.Idx → Elt F .f32 :=
  formula (scattered (fun b => m (c, b)))
    (m ((c : Thread nD τ).loc main_arg1)) (m ((c : Thread nD τ).loc main_arg2))
    (m ((c : Thread nD τ).loc main_arg3)) (m ((c : Thread nD τ).loc main_arg4))

/-- What the tail leaves in the result buffer is `answer`. -/
theorem tail_answer (c : Dev nD) :
    (Pipeline.afterTail₀ cfgs (dats m) 0 (V0 m) [hostOps1] c main_v76 : S64x4x4096x8.Idx → Elt F .f32) = answer m c := by
  rw [tail_result, result_formula, V_v70, V_v71, V_v72, V_v73, V_v74]
  exact formula_there_and_back shapeCasts_S64x4x4096x8_S256x32768 shapeCasts_S256x32768_S64x4x4096x8 _ _ _ _ _

/-- Every weakly fair execution of the kernel's program terminates with the result at `answer` and the arguments unchanged. -/
theorem run_answer : θ_run defs (onTc (τ := τ) (main (F := F))) ⟨m, fun _ => 0, ρ⟩ (fun r => ∀ c : Dev nD,
      r.2.mem ((c.tc : Thread nD τ).loc main_v76) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v76 (Pipeline.mem_restRefs_of main_v76 (by decide) (by decide))).trans (tail_answer m c),
      ((h c).2 main_arg0 (Pipeline.mem_restRefs_of main_arg0 (by decide) (by decide))).trans (W_arg0 m (dats m) c),
      ((h c).2 main_arg1 (Pipeline.mem_restRefs_of main_arg1 (by decide) (by decide))).trans (W_arg1 m (dats m) c),
      ((h c).2 main_arg2 (Pipeline.mem_restRefs_of main_arg2 (by decide) (by decide))).trans (W_arg2 m (dats m) c),
      ((h c).2 main_arg3 (Pipeline.mem_restRefs_of main_arg3 (by decide) (by decide))).trans (W_arg3 m (dats m) c),
      ((h c).2 main_arg4 (Pipeline.mem_restRefs_of main_arg4 (by decide) (by decide))).trans (W_arg4 m (dats m) c),
      ((h c).2 main_arg5 (Pipeline.mem_restRefs_of main_arg5 (by decide) (by decide))).trans (W_arg5 m (dats m) c),
      ((h c).2 main_arg6 (Pipeline.mem_restRefs_of main_arg6 (by decide) (by decide))).trans (W_arg6 m (dats m) c),
      ((h c).2 main_arg7 (Pipeline.mem_restRefs_of main_arg7 (by decide) (by decide))).trans (W_arg7 m (dats m) c)⟩) (run_main m ρ)

end Cert.KernelIdeal.Fr

end
-- ==== Proof.RefKept.lean ====
/-
  The reference writes no argument: each of its 117 operations writes only its own result buffer, and no result buffer is
  an argument.  So after all of them, and after any initial stretch of them, every argument still holds its launch contents.
-/
import proofs.«180547_j79517024518423_1_alg».proof.Proof.RefRun

noncomputable section

namespace Cert.ReferenceIdeal.Kept

open Cert.ReferenceIdeal Cert.ReferenceIdeal.Gen Cert.ReferenceIdeal.RunP Idealize.ShloMosaic Idealize.ShloMosaic.TcCoe Idealize.SL.Sem

variable {F : FTy → Type} [FloatOps F]

/-- No operation writes argument 0. -/
theorem unwritten0 : ∀ op ∈ (ops : List (HloOp τ sig (Elt F))), Proc.devRef .tc main_arg0 ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No operation writes argument 1. -/
theorem unwritten1 : ∀ op ∈ (ops : List (HloOp τ sig (Elt F))), Proc.devRef .tc main_arg1 ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No operation writes argument 2. -/
theorem unwritten2 : ∀ op ∈ (ops : List (HloOp τ sig (Elt F))), Proc.devRef .tc main_arg2 ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No operation writes argument 3. -/
theorem unwritten3 : ∀ op ∈ (ops : List (HloOp τ sig (Elt F))), Proc.devRef .tc main_arg3 ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No operation writes argument 4. -/
theorem unwritten4 : ∀ op ∈ (ops : List (HloOp τ sig (Elt F))), Proc.devRef .tc main_arg4 ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No operation writes argument 5. -/
theorem unwritten5 : ∀ op ∈ (ops : List (HloOp τ sig (Elt F))), Proc.devRef .tc main_arg5 ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No operation writes argument 6. -/
theorem unwritten6 : ∀ op ∈ (ops : List (HloOp τ sig (Elt F))), Proc.devRef .tc main_arg6 ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No operation writes argument 7. -/
theorem unwritten7 : ∀ op ∈ (ops : List (HloOp τ sig (Elt F))), Proc.devRef .tc main_arg7 ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- Argument 0 after the first `n` operations is as launched, for every `n`. -/
theorem kept0 (n : Nat) (M : Valuation τ sig (Elt F)) :
    StableHlo.after (List.take n (ops : List (HloOp τ sig (Elt F)))) M (Proc.devRef .tc main_arg0) = M (Proc.devRef .tc main_arg0) :=
  StableHlo.after_of_forall_not_mem _ _ fun op hop => unwritten0 op (List.mem_of_mem_take hop)

/-- Argument 1 after the first `n` operations is as launched, for every `n`. -/
theorem kept1 (n : Nat) (M : Valuation τ sig (Elt F)) :
    StableHlo.after (List.take n (ops : List (HloOp τ sig (Elt F)))) M (Proc.devRef .tc main_arg1) = M (Proc.devRef .tc main_arg1) :=
  StableHlo.after_of_forall_not_mem _ _ fun op hop => unwritten1 op (List.mem_of_mem_take hop)

/-- Argument 2 after the first `n` operations is as launched, for every `n`. -/
theorem kept2 (n : Nat) (M : Valuation τ sig (Elt F)) :
    StableHlo.after (List.take n (ops : List (HloOp τ sig (Elt F)))) M (Proc.devRef .tc main_arg2) = M (Proc.devRef .tc main_arg2) :=
  StableHlo.after_of_forall_not_mem _ _ fun op hop => unwritten2 op (List.mem_of_mem_take hop)

/-- Argument 3 after the first `n` operations is as launched, for every `n`. -/
theorem kept3 (n : Nat) (M : Valuation τ sig (Elt F)) :
    StableHlo.after (List.take n (ops : List (HloOp τ sig (Elt F)))) M (Proc.devRef .tc main_arg3) = M (Proc.devRef .tc main_arg3) :=
  StableHlo.after_of_forall_not_mem _ _ fun op hop => unwritten3 op (List.mem_of_mem_take hop)

/-- Argument 4 after the first `n` operations is as launched, for every `n`. -/
theorem kept4 (n : Nat) (M : Valuation τ sig (Elt F)) :
    StableHlo.after (List.take n (ops : List (HloOp τ sig (Elt F)))) M (Proc.devRef .tc main_arg4) = M (Proc.devRef .tc main_arg4) :=
  StableHlo.after_of_forall_not_mem _ _ fun op hop => unwritten4 op (List.mem_of_mem_take hop)

/-- Argument 5 after the first `n` operations is as launched, for every `n`. -/
theorem kept5 (n : Nat) (M : Valuation τ sig (Elt F)) :
    StableHlo.after (List.take n (ops : List (HloOp τ sig (Elt F)))) M (Proc.devRef .tc main_arg5) = M (Proc.devRef .tc main_arg5) :=
  StableHlo.after_of_forall_not_mem _ _ fun op hop => unwritten5 op (List.mem_of_mem_take hop)

/-- Argument 6 after the first `n` operations is as launched, for every `n`. -/
theorem kept6 (n : Nat) (M : Valuation τ sig (Elt F)) :
    StableHlo.after (List.take n (ops : List (HloOp τ sig (Elt F)))) M (Proc.devRef .tc main_arg6) = M (Proc.devRef .tc main_arg6) :=
  StableHlo.after_of_forall_not_mem _ _ fun op hop => unwritten6 op (List.mem_of_mem_take hop)

/-- Argument 7 after the first `n` operations is as launched, for every `n`. -/
theorem kept7 (n : Nat) (M : Valuation τ sig (Elt F)) :
    StableHlo.after (List.take n (ops : List (HloOp τ sig (Elt F)))) M (Proc.devRef .tc main_arg7) = M (Proc.devRef .tc main_arg7) :=
  StableHlo.after_of_forall_not_mem _ _ fun op hop => unwritten7 op (List.mem_of_mem_take hop)

end Cert.ReferenceIdeal.Kept

end
-- ==== Proof.RefTail.lean ====
/-
  The reference computes the pointwise formula.

  Its first 96 operations build one array L (buffer 69) by slices, comparisons, selects, a gather, a four-part concatenate and
  an overwrite-scatter into zeros; they write no argument.  Its last 21 operations apply to L and to arguments 1 .. 4, all of
  shape [64,4,4096,8], exactly the operations of `formula`: max with a zero constant, a product, a comparison against zero
  selecting between two constants, two sums, an absolute value (the host's, which on the extended reals is the kernel's:
  max x (-x)), two comparisons and two selects.  So the result buffer ends at `formula L x1 x2 x3 x4`.
-/
import proofs.«180547_j79517024518423_1_alg».proof.Proof.RefKept
import proofs.«180547_j79517024518423_1_alg».proof.Proof.Spec
import proofs.«180547_j79517024518423_1_alg».proof.Proof.LibAfterAppend
import Idealize.ShloMosaic.PureOps.Ideal

noncomputable section

namespace Cert.ReferenceIdeal.Tail

open Cert.ReferenceIdeal Cert.ReferenceIdeal.Gen Cert.ReferenceIdeal.RunP Idealize.ShloMosaic Idealize.ShloMosaic.TcCoe Idealize.SL.Sem
open Idealize.ShloMosaic.StableHlo Cert.Pointwise

/-! A typed reference's transport of contents between the value's type and the buffer's type is the identity: the two
    types are the same type.  Stated once in general for a transport there and back, and once per buffer of the last 21
    operations for a single transport. -/

/-- There and back is the identity. -/
theorem ofBuf_toBuf {Val : EltTy → Type} {T : BufTy} (x : TRef sig T) (v : T.Contents Val) : x.ofBuf (x.toBuf v) = v := by
  obtain ⟨r, h, _, _⟩ := x
  subst h
  rfl

theorem toBuf_v83 (v : (⟨S64x4x4096x8, .f32⟩ : BufTy).Contents (Elt Ideal)) :
    (TRef.of (sig := sig) (T := ⟨S64x4x4096x8, .f32⟩) main_v83).toBuf v = v := eq_of_heq (cast_heq _ _)
theorem toBuf_v74 (v : (⟨S64x4x4096x8, .f32⟩ : BufTy).Contents (Elt Ideal)) :
    (TRef.of (sig := sig) (T := ⟨S64x4x4096x8, .f32⟩) main_v74).toBuf v = v := eq_of_heq (cast_heq _ _)
theorem toBuf_v70 (v : (⟨S64x4x4096x8, .f32⟩ : BufTy).Contents (Elt Ideal)) :
    (TRef.of (sig := sig) (T := ⟨S64x4x4096x8, .f32⟩) main_v70).toBuf v = v := eq_of_heq (cast_heq _ _)
theorem ofBuf_v80 (v : (⟨S64x4x4096x8, .i1⟩ : BufTy).Contents (Elt Ideal)) :
    (TRef.of (sig := sig) (T := ⟨S64x4x4096x8, .i1⟩) main_v80).ofBuf v = v := eq_of_heq (cast_heq _ _)
theorem ofBuf_v73 (v : (⟨S64x4x4096x8, .i1⟩ : BufTy).Contents (Elt Ideal)) :
    (TRef.of (sig := sig) (T := ⟨S64x4x4096x8, .i1⟩) main_v73).ofBuf v = v := eq_of_heq (cast_heq _ _)
theorem ofBuf_v81 (v : (⟨S64x4x4096x8, .i1⟩ : BufTy).Contents (Elt Ideal)) :
    (TRef.of (sig := sig) (T := ⟨S64x4x4096x8, .i1⟩) main_v81).ofBuf v = v := eq_of_heq (cast_heq _ _)
theorem ofBuf_cst_17 (v : (⟨S_, .f32⟩ : BufTy).Contents (Elt Ideal)) :
    (TRef.of (sig := sig) (T := ⟨S_, .f32⟩) main_cst_17).ofBuf v = v := eq_of_heq (cast_heq _ _)
theorem ofBuf_cst_18 (v : (⟨S_, .f32⟩ : BufTy).Contents (Elt Ideal)) :
    (TRef.of (sig := sig) (T := ⟨S_, .f32⟩) main_cst_18).ofBuf v = v := eq_of_heq (cast_heq _ _)
theorem ofBuf_v69 (v : (⟨S64x4x4096x8, .f32⟩ : BufTy).Contents (Elt Ideal)) :
    (TRef.of (sig := sig) (T := ⟨S64x4x4096x8, .f32⟩) main_v69).ofBuf v = v := eq_of_heq (cast_heq _ _)
theorem ofBuf_v79 (v : (⟨S64x4x4096x8, .f32⟩ : BufTy).Contents (Elt Ideal)) :
    (TRef.of (sig := sig) (T := ⟨S64x4x4096x8, .f32⟩) main_v79).ofBuf v = v := eq_of_heq (cast_heq _ _)
theorem ofBuf_v71 (v : (⟨S64x4x4096x8, .f32⟩ : BufTy).Contents (Elt Ideal)) :
    (TRef.of (sig := sig) (T := ⟨S64x4x4096x8, .f32⟩) main_v71).ofBuf v = v := eq_of_heq (cast_heq _ _)
theorem ofBuf_arg1 (v : (⟨S64x4x4096x8, .f32⟩ : BufTy).Contents (Elt Ideal)) :
    (TRef.of (sig := sig) (T := ⟨S64x4x4096x8, .f32⟩) main_arg1).ofBuf v = v := eq_of_heq (cast_heq _ _)

/-- A constant broadcast from rank 0 to [64,4,4096,8] is the constant at every index. -/
theorem bc_const (w : BitVec 32) :
    broadcastInDim S64x4x4096x8 ![] bcast_S_S64x4x4096x8 (constant (F := Ideal) S_ .f32 w) = broadcast S64x4x4096x8 (FloatOps.ofBits .f32 w) := rfl

/-- On the extended reals the host's absolute value is the kernel's: both are max x (-x). -/
theorem host_absf_eq {s : Shape} {φ : FTy} (x : FVec Ideal s φ) : Host.absf x = absf x := rfl

/-- The array the reference scatters into zeros: buffer 69 after the first 96 operations, from contents `M`. -/
def scattered (M : Valuation τ sig (Elt Ideal)) : S64x4x4096x8.Idx → Elt Ideal .f32 :=
  after (List.take 96 (ops (F := Ideal))) M (Proc.devRef .tc main_v69)

set_option maxRecDepth 16384 in
/-- The result buffer after all 117 operations is the formula of the scattered array and arguments 1 .. 4. -/
theorem result_formula (M : Valuation τ sig (Elt Ideal)) :
    (after (ops (F := Ideal)) M (Proc.devRef .tc main_v83) : S64x4x4096x8.Idx → Elt Ideal .f32)
      = formula (F := Ideal) (s := S64x4x4096x8) (scattered M) (M (Proc.devRef .tc main_arg1)) (M (Proc.devRef .tc main_arg2))
          (M (Proc.devRef .tc main_arg3)) (M (Proc.devRef .tc main_arg4)) := by
  rw [after_take_drop 96 (ops (F := Ideal)) M]
  have a1 := Kept.kept1 (F := Ideal) 96 M
  have a2 := Kept.kept2 (F := Ideal) 96 M
  have a3 := Kept.kept3 (F := Ideal) 96 M
  have a4 := Kept.kept4 (F := Ideal) 96 M
  unfold scattered
  generalize after (List.take 96 (ops (F := Ideal))) M = W at a1 a2 a3 a4 ⊢
  simp only [ops, List.drop_succ_cons, List.drop_zero]
  after_results_simp
  rw [a1, a2, a3, a4]
  simp only [ofBuf_toBuf, toBuf_v83, toBuf_v74, toBuf_v70, ofBuf_v80, ofBuf_v73, ofBuf_v81, ofBuf_cst_17, ofBuf_cst_18, ofBuf_v69, ofBuf_v79, ofBuf_v71, ofBuf_arg1, host_absf_eq, bc_const, id]
  unfold formula product magnitude
  rfl

/-- Every weakly fair execution of the reference terminates with the result at the formula of its scattered array and arguments
    1 .. 4, and the arguments unchanged. -/
theorem run_formula (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83)
        = formula (F := Ideal) (s := S64x4x4096x8) (scattered (launchContents m c)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v83).trans (result_formula (launchContents m c)),
      (h c main_arg0).trans (after_of_forall_not_mem _ _ Kept.unwritten0),
      (h c main_arg1).trans (after_of_forall_not_mem _ _ Kept.unwritten1),
      (h c main_arg2).trans (after_of_forall_not_mem _ _ Kept.unwritten2),
      (h c main_arg3).trans (after_of_forall_not_mem _ _ Kept.unwritten3),
      (h c main_arg4).trans (after_of_forall_not_mem _ _ Kept.unwritten4),
      (h c main_arg5).trans (after_of_forall_not_mem _ _ Kept.unwritten5),
      (h c main_arg6).trans (after_of_forall_not_mem _ _ Kept.unwritten6),
      (h c main_arg7).trans (after_of_forall_not_mem _ _ Kept.unwritten7)⟩) (RunP.run (F := Ideal) m ρ)

end Cert.ReferenceIdeal.Tail

end
-- ==== Proof.Same.lean ====
/-
  The two programs scatter the same array.

  Before anything else both programs run the same 96 host operations, one for one, on their arguments 0, 5, 6 and 7: five column
  slices of argument 0 and their reshapes, comparisons with constants, a clamp, a gather from argument 7, a scalar computed from
  argument 6, a mask joined with argument 5, four index columns joined into one index array, and an overwrite-scatter into a zero
  array.  Evaluating both folds gives the same composed function of the four arguments (the scatter and the gather are never
  opened: the same function stands on both sides), so from launch contents that agree on those arguments the two arrays are equal.
-/
import proofs.«180547_j79517024518423_1_alg».proof.Proof.IdealLookup
import proofs.«180547_j79517024518423_1_alg».proof.Proof.RefTail
import Idealize.ShloMosaic.PureOps.Ideal

noncomputable section

namespace Cert.Same

open Idealize.ShloMosaic Idealize.ShloMosaic.TcCoe Idealize.SL.Sem Idealize.ShloMosaic.StableHlo

/-- Four [2000000,8,1] index columns joined along the last axis into one [2000000,8,4] index array (K). -/
def joinedK (A B C D : (⟨Cert.KernelIdeal.S2000000x8x1, .i32⟩ : BufTy).Contents (Elt Ideal)) : (⟨Cert.KernelIdeal.S2000000x8x4, .i32⟩ : BufTy).Contents (Elt Ideal) :=
  concatenate Cert.KernelIdeal.S2000000x8x4 2 [⟨Cert.KernelIdeal.S2000000x8x1, A⟩, ⟨Cert.KernelIdeal.S2000000x8x1, B⟩, ⟨Cert.KernelIdeal.S2000000x8x1, C⟩, ⟨Cert.KernelIdeal.S2000000x8x1, D⟩]
    Cert.KernelIdeal.Gen.concatenates_S2000000x8x1_S2000000x8x1_S2000000x8x1_S2000000x8x1_S2000000x8x4_d2

/-- The join operation's result, read as that function of its four operands' contents. -/
theorem joinedK_result (F' : Valuation Cert.KernelIdeal.τ Cert.KernelIdeal.sig (Elt Ideal)) :
    (StableHlo.nary ![Cert.KernelIdeal.main_v64, Cert.KernelIdeal.main_v65, Cert.KernelIdeal.main_v66, Cert.KernelIdeal.main_v67] Cert.KernelIdeal.main_v68
        (fun u => concatenate Cert.KernelIdeal.S2000000x8x4 2 [⟨Cert.KernelIdeal.S2000000x8x1, u 0⟩, ⟨Cert.KernelIdeal.S2000000x8x1, u 1⟩, ⟨Cert.KernelIdeal.S2000000x8x1, u 2⟩, ⟨Cert.KernelIdeal.S2000000x8x1, u 3⟩]
          Cert.KernelIdeal.Gen.concatenates_S2000000x8x1_S2000000x8x1_S2000000x8x1_S2000000x8x1_S2000000x8x4_d2)).result F'
        (no_index (Proc.devRef .tc Cert.KernelIdeal.main_v68))
      = joinedK (F' (Proc.devRef .tc Cert.KernelIdeal.main_v64)) (F' (Proc.devRef .tc Cert.KernelIdeal.main_v65))
          (F' (Proc.devRef .tc Cert.KernelIdeal.main_v66)) (F' (Proc.devRef .tc Cert.KernelIdeal.main_v67)) :=
  (nary4_result' _ _ _ F').trans rfl

/-- Four [2000000,8,1] index columns joined along the last axis into one [2000000,8,4] index array (R). -/
def joinedR (A B C D : (⟨Cert.ReferenceIdeal.S2000000x8x1, .i32⟩ : BufTy).Contents (Elt Ideal)) : (⟨Cert.ReferenceIdeal.S2000000x8x4, .i32⟩ : BufTy).Contents (Elt Ideal) :=
  concatenate Cert.ReferenceIdeal.S2000000x8x4 2 [⟨Cert.ReferenceIdeal.S2000000x8x1, A⟩, ⟨Cert.ReferenceIdeal.S2000000x8x1, B⟩, ⟨Cert.ReferenceIdeal.S2000000x8x1, C⟩, ⟨Cert.ReferenceIdeal.S2000000x8x1, D⟩]
    Cert.ReferenceIdeal.Gen.concatenates_S2000000x8x1_S2000000x8x1_S2000000x8x1_S2000000x8x1_S2000000x8x4_d2

/-- The join operation's result, read as that function of its four operands' contents. -/
theorem joinedR_result (F' : Valuation Cert.ReferenceIdeal.τ Cert.ReferenceIdeal.sig (Elt Ideal)) :
    (StableHlo.nary ![Cert.ReferenceIdeal.main_v64, Cert.ReferenceIdeal.main_v65, Cert.ReferenceIdeal.main_v66, Cert.ReferenceIdeal.main_v67] Cert.ReferenceIdeal.main_v68
        (fun u => concatenate Cert.ReferenceIdeal.S2000000x8x4 2 [⟨Cert.ReferenceIdeal.S2000000x8x1, u 0⟩, ⟨Cert.ReferenceIdeal.S2000000x8x1, u 1⟩, ⟨Cert.ReferenceIdeal.S2000000x8x1, u 2⟩, ⟨Cert.ReferenceIdeal.S2000000x8x1, u 3⟩]
          Cert.ReferenceIdeal.Gen.concatenates_S2000000x8x1_S2000000x8x1_S2000000x8x1_S2000000x8x1_S2000000x8x4_d2)).result F'
        (no_index (Proc.devRef .tc Cert.ReferenceIdeal.main_v68))
      = joinedR (F' (Proc.devRef .tc Cert.ReferenceIdeal.main_v64)) (F' (Proc.devRef .tc Cert.ReferenceIdeal.main_v65))
          (F' (Proc.devRef .tc Cert.ReferenceIdeal.main_v66)) (F' (Proc.devRef .tc Cert.ReferenceIdeal.main_v67)) :=
  (nary4_result' _ _ _ F').trans rfl

set_option maxRecDepth 65536 in
set_option maxHeartbeats 40000000 in
/-- From contents agreeing on arguments 0, 5, 6, 7 the kernel's program and the reference scatter the same array. -/
theorem scattered_eq (M : Valuation Cert.KernelIdeal.τ Cert.KernelIdeal.sig (Elt Ideal)) (M' : Valuation Cert.ReferenceIdeal.τ Cert.ReferenceIdeal.sig (Elt Ideal))
    (e0 : M' (Proc.devRef .tc Cert.ReferenceIdeal.main_arg0) = M (Proc.devRef .tc Cert.KernelIdeal.main_arg0))
    (e5 : M' (Proc.devRef .tc Cert.ReferenceIdeal.main_arg5) = M (Proc.devRef .tc Cert.KernelIdeal.main_arg5))
    (e6 : M' (Proc.devRef .tc Cert.ReferenceIdeal.main_arg6) = M (Proc.devRef .tc Cert.KernelIdeal.main_arg6))
    (e7 : M' (Proc.devRef .tc Cert.ReferenceIdeal.main_arg7) = M (Proc.devRef .tc Cert.KernelIdeal.main_arg7)) :
    Cert.ReferenceIdeal.Tail.scattered M' = Cert.KernelIdeal.Fr.scattered (F := Ideal) M := by
  unfold Cert.ReferenceIdeal.Tail.scattered Cert.KernelIdeal.Fr.scattered
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.ReferenceIdeal.RunP.ops,
    List.flatten_cons, List.flatten_nil, List.append_nil, List.cons_append, List.nil_append, List.take_succ_cons, List.take_zero]
  simp (disch := decide) only [after_cons, after_nil, joinedK_result, joinedR_result,
    nullary_result', unary_result', binary_result', ternary_result', quaternary_result', reshape_result',
    unaryIndexed_result', binaryIndexed_result',
    nullary_result_ne', unary_result_ne', binary_result_ne', ternary_result_ne', quaternary_result_ne', reshape_result_ne',
    nary_result_ne', unaryIndexed_result_ne', binaryIndexed_result_ne']
  rw [e0, e5, e6, e7]
  rfl

end Cert.Same

end
-- ==== Proof.lean ====
/-
  The certificate: a kernel that evaluates a pointwise formula on five [64,4,4096,8] arrays through a [256,32768] view,
  against the same formula written directly on the host.

  Both programs first build one array by the same 96 host operations from arguments 0, 5, 6 and 7 (slices, comparisons,
  selects, a gather, a four-part concatenate and an overwrite-scatter into zeros: the same composed function on both
  sides, Proof/Same).  The reference then applies the pointwise formula to that array and arguments 1 .. 4 (Proof/RefTail).
  The kernel's program reshapes the five arrays to [256,32768], runs one region over a grid of sixteen row-blocks whose
  body evaluates the same formula on blocks (Proof/IdealBody, Proof/IdealValue), and reshapes the result back
  (Proof/IdealResult, Proof/IdealRun).  A pointwise formula commutes with a reshape, and a reshape there and back is the
  identity (Proof/Spec), so the results agree entry by entry on the extended reals; no law of arithmetic is used, so the
  precondition is never opened.

  The frames: the region's run is the library's launch theorem applied to the body's triple, and no host operation writes
  an argument (Proof/IdealFrame, Proof/BitsFrame); the reference's frame is its run with the result dropped.  The
  idealization rewrote nothing, so `preserves` is trivial.
-/
import proofs.«180547_j79517024518423_1_alg».proof.Defs
import proofs.«180547_j79517024518423_1_alg».proof.Proof.Gen.Kernel
import proofs.«180547_j79517024518423_1_alg».proof.Proof.Gen.KernelIdeal
import proofs.«180547_j79517024518423_1_alg».proof.Proof.Gen.ReferenceIdeal
import proofs.«180547_j79517024518423_1_alg».proof.Proof.Gen.Pre_finite_inputs
import proofs.«180547_j79517024518423_1_alg».proof.Proof.BitsFrame
import proofs.«180547_j79517024518423_1_alg».proof.Proof.IdealFrame
import proofs.«180547_j79517024518423_1_alg».proof.Proof.IdealRun
import proofs.«180547_j79517024518423_1_alg».proof.Proof.RefTail
import proofs.«180547_j79517024518423_1_alg».proof.Proof.Same
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel's program runs to the end, faults nowhere, and leaves its arguments unchanged. -/
theorem frame_kernel : Cert.frame_Kernel := fun m ρ _ => Cert.Kernel.Fr.frame m ρ

/-- So does the idealized kernel's program. -/
theorem frame_ideal : Cert.frame_KernelIdeal := fun m ρ _ => Cert.KernelIdeal.Fr.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Tail.run_formula m ρ)

/-- The idealization rewrote no operation. -/
theorem preserves : Cert.preserves_Kernel_KernelIdeal := trivial

/-- From memories agreeing on the arguments both idealized programs end with the pointwise formula of the scattered array and
    arguments 1 .. 4 in their result buffers. -/
theorem algebraic : Cert.algebraic_KernelIdeal_ReferenceIdeal := by
  intro m ρ m' ρ' _ hagree
  refine ⟨fun c => Cert.KernelIdeal.Fr.answer m c, Cert.KernelIdeal.Fr.run_answer m ρ, ?_⟩
  refine (θ_run Cert.ReferenceIdeal.defs _ _).mono (fun _ h c => ⟨(h c).1.trans ?_, (h c).2⟩)
    (Cert.ReferenceIdeal.Tail.run_formula m' ρ')
  obtain ⟨e0, e1, e2, e3, e4, e5, e6, e7⟩ := hagree c
  rw [e1, e2, e3, e4, Cert.Same.scattered_eq (fun b => m (c, b)) (launchContents m' c) e0 e5 e6 e7]
  rfl

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
